-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S4x2048x16x64 : Shape := ⟨4, ![4, 2048, 16, 64]⟩
abbrev S1x256x16x64 : Shape := ⟨4, ![1, 256, 16, 64]⟩
abbrev S1x2048x16x64 : Shape := ⟨4, ![1, 2048, 16, 64]⟩
abbrev S1x256x1024 : Shape := ⟨3, ![1, 256, 1024]⟩
abbrev S1x256x1x64 : Shape := ⟨4, ![1, 256, 1, 64]⟩
abbrev S256x64 : Shape := ⟨2, ![256, 64]⟩
abbrev S1x2048x1x64 : Shape := ⟨4, ![1, 2048, 1, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 33
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S8192x1024, .bf16⟩
  | .hbm, ⟨24, _⟩ => ⟨S4x2048x16x64, .bf16⟩
  | .hbm, ⟨25, _⟩ => ⟨S1x1024, .f32⟩
  | .hbm, ⟨26, _⟩ => ⟨S8192x1024, .bf16⟩
  | .hbm, ⟨27, _⟩ => ⟨S4x2048x16x64, .bf16⟩
  | .hbm, ⟨28, _⟩ => ⟨S1x1024, .f32⟩
  | .hbm, ⟨29, _⟩ => ⟨S8192x1024, .bf16⟩
  | .hbm, ⟨30, _⟩ => ⟨S4x2048x16x64, .bf16⟩
  | .hbm, ⟨31, _⟩ => ⟨S1x1024, .f32⟩
  | .hbm, ⟨32, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x256x16x64, .bf16⟩
  | .local _ .vmem, ⟨19, _⟩ => ⟨S1x256x16x64, .bf16⟩
  | .local _ .vmem, ⟨20, _⟩ => ⟨S1x2048x16x64, .bf16⟩
  | .local _ .vmem, ⟨21, _⟩ => ⟨S1x2048x16x64, .bf16⟩
  | .local _ .vmem, ⟨22, _⟩ => ⟨S1x2048x16x64, .bf16⟩
  | .local _ .vmem, ⟨23, _⟩ => ⟨S1x2048x16x64, .bf16⟩
  | .local _ .vmem, ⟨24, _⟩ => ⟨S1024x1024, .bf16⟩
  | .local _ .vmem, ⟨25, _⟩ => ⟨S1x1024, .f32⟩
  | .local _ .vmem, ⟨26, _⟩ => ⟨S1x256x1024, .f32⟩
  | .local _ .vmem, ⟨27, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x16x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x16x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x16x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x16x64 : S8192x1024.ShapeCasts S4x2048x16x64
  inb_S1x256x16x64_S1x256x1x64_0_0_0_0 : ∀ a, (![0, 0, 0, 0] : Fin 4 → Nat) a + S1x256x1x64.size a ≤ S1x256x16x64.size a
  h_S1x256x1x64 : 0 < S1x256x1x64.numel
  shapeCasts_S1x256x1x64_S256x64 : S1x256x1x64.ShapeCasts S256x64
  inb_S1x2048x16x64_S1x2048x1x64_0_0_0_0 : ∀ a, (![0, 0, 0, 0] : Fin 4 → Nat) a + S1x2048x1x64.size a ≤ S1x2048x16x64.size a
  h_S1x2048x1x64 : 0 < S1x2048x1x64.numel
  shapeCasts_S1x2048x1x64_S2048x64 : S1x2048x1x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x16x64_S1x256x1x64_0_0_1_0 : ∀ a, (![0, 0, 1, 0] : Fin 4 → Nat) a + S1x256x1x64.size a ≤ S1x256x16x64.size a
  inb_S1x2048x16x64_S1x2048x1x64_0_0_1_0 : ∀ a, (![0, 0, 1, 0] : Fin 4 → Nat) a + S1x2048x1x64.size a ≤ S1x2048x16x64.size a
  inb_S1x256x16x64_S1x256x1x64_0_0_2_0 : ∀ a, (![0, 0, 2, 0] : Fin 4 → Nat) a + S1x256x1x64.size a ≤ S1x256x16x64.size a
  inb_S1x2048x16x64_S1x2048x1x64_0_0_2_0 : ∀ a, (![0, 0, 2, 0] : Fin 4 → Nat) a + S1x2048x1x64.size a ≤ S1x2048x16x64.size a
  inb_S1x256x16x64_S1x256x1x64_0_0_3_0 : ∀ a, (![0, 0, 3, 0] : Fin 4 → Nat) a + S1x256x1x64.size a ≤ S1x256x16x64.size a
  inb_S1x2048x16x64_S1x2048x1x64_0_0_3_0 : ∀ a, (![0, 0, 3, 0] : Fin 4 → Nat) a + S1x2048x1x64.size a ≤ S1x2048x16x64.size a
  inb_S1x256x16x64_S1x256x1x64_0_0_4_0 : ∀ a, (![0, 0, 4, 0] : Fin 4 → Nat) a + S1x256x1x64.size a ≤ S1x256x16x64.size a
  inb_S1x2048x16x64_S1x2048x1x64_0_0_4_0 : ∀ a, (![0, 0, 4, 0] : Fin 4 → Nat) a + S1x2048x1x64.size a ≤ S1x2048x16x64.size a
  inb_S1x256x16x64_S1x256x1x64_0_0_5_0 : ∀ a, (![0, 0, 5, 0] : Fin 4 → Nat) a + S1x256x1x64.size a ≤ S1x256x16x64.size a
  inb_S1x2048x16x64_S1x2048x1x64_0_0_5_0 : ∀ a, (![0, 0, 5, 0] : Fin 4 → Nat) a + S1x2048x1x64.size a ≤ S1x2048x16x64.size a
  inb_S1x256x16x64_S1x256x1x64_0_0_6_0 : ∀ a, (![0, 0, 6, 0] : Fin 4 → Nat) a + S1x256x1x64.size a ≤ S1x256x16x64.size a
  inb_S1x2048x16x64_S1x2048x1x64_0_0_6_0 : ∀ a, (![0, 0, 6, 0] : Fin 4 → Nat) a + S1x2048x1x64.size a ≤ S1x2048x16x64.size a
  inb_S1x256x16x64_S1x256x1x64_0_0_7_0 : ∀ a, (![0, 0, 7, 0] : Fin 4 → Nat) a + S1x256x1x64.size a ≤ S1x256x16x64.size a
  inb_S1x2048x16x64_S1x2048x1x64_0_0_7_0 : ∀ a, (![0, 0, 7, 0] : Fin 4 → Nat) a + S1x2048x1x64.size a ≤ S1x2048x16x64.size a
  inb_S1x256x16x64_S1x256x1x64_0_0_8_0 : ∀ a, (![0, 0, 8, 0] : Fin 4 → Nat) a + S1x256x1x64.size a ≤ S1x256x16x64.size a
  inb_S1x2048x16x64_S1x2048x1x64_0_0_8_0 : ∀ a, (![0, 0, 8, 0] : Fin 4 → Nat) a + S1x2048x1x64.size a ≤ S1x2048x16x64.size a
  inb_S1x256x16x64_S1x256x1x64_0_0_9_0 : ∀ a, (![0, 0, 9, 0] : Fin 4 → Nat) a + S1x256x1x64.size a ≤ S1x256x16x64.size a
  inb_S1x2048x16x64_S1x2048x1x64_0_0_9_0 : ∀ a, (![0, 0, 9, 0] : Fin 4 → Nat) a + S1x2048x1x64.size a ≤ S1x2048x16x64.size a
  inb_S1x256x16x64_S1x256x1x64_0_0_10_0 : ∀ a, (![0, 0, 10, 0] : Fin 4 → Nat) a + S1x256x1x64.size a ≤ S1x256x16x64.size a
  inb_S1x2048x16x64_S1x2048x1x64_0_0_10_0 : ∀ a, (![0, 0, 10, 0] : Fin 4 → Nat) a + S1x2048x1x64.size a ≤ S1x2048x16x64.size a
  inb_S1x256x16x64_S1x256x1x64_0_0_11_0 : ∀ a, (![0, 0, 11, 0] : Fin 4 → Nat) a + S1x256x1x64.size a ≤ S1x256x16x64.size a
  inb_S1x2048x16x64_S1x2048x1x64_0_0_11_0 : ∀ a, (![0, 0, 11, 0] : Fin 4 → Nat) a + S1x2048x1x64.size a ≤ S1x2048x16x64.size a
  inb_S1x256x16x64_S1x256x1x64_0_0_12_0 : ∀ a, (![0, 0, 12, 0] : Fin 4 → Nat) a + S1x256x1x64.size a ≤ S1x256x16x64.size a
  inb_S1x2048x16x64_S1x2048x1x64_0_0_12_0 : ∀ a, (![0, 0, 12, 0] : Fin 4 → Nat) a + S1x2048x1x64.size a ≤ S1x2048x16x64.size a
  inb_S1x256x16x64_S1x256x1x64_0_0_13_0 : ∀ a, (![0, 0, 13, 0] : Fin 4 → Nat) a + S1x256x1x64.size a ≤ S1x256x16x64.size a
  inb_S1x2048x16x64_S1x2048x1x64_0_0_13_0 : ∀ a, (![0, 0, 13, 0] : Fin 4 → Nat) a + S1x2048x1x64.size a ≤ S1x2048x16x64.size a
  inb_S1x256x16x64_S1x256x1x64_0_0_14_0 : ∀ a, (![0, 0, 14, 0] : Fin 4 → Nat) a + S1x256x1x64.size a ≤ S1x256x16x64.size a
  inb_S1x2048x16x64_S1x2048x1x64_0_0_14_0 : ∀ a, (![0, 0, 14, 0] : Fin 4 → Nat) a + S1x2048x1x64.size a ≤ S1x2048x16x64.size a
  inb_S1x256x16x64_S1x256x1x64_0_0_15_0 : ∀ a, (![0, 0, 15, 0] : Fin 4 → Nat) a + S1x256x1x64.size a ≤ S1x256x16x64.size a
  inb_S1x2048x16x64_S1x2048x1x64_0_0_15_0 : ∀ a, (![0, 0, 15, 0] : Fin 4 → Nat) a + S1x2048x1x64.size a ≤ S1x2048x16x64.size a
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x16x64.size a ≤ S4x2048x16x64.size a
  hwx3_0 : ∀ i : grid3.Coords, EltTy.bits .bf16 = 32 ∨ (Rect.block (s := S4x2048x16x64) S1x256x16x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x16x64.size a ≤ S4x2048x16x64.size a
  hwx3_1 : ∀ i : grid3.Coords, EltTy.bits .bf16 = 32 ∨ (Rect.block (s := S4x2048x16x64) S1x2048x16x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x16x64.size a ≤ S4x2048x16x64.size a
  hwx3_2 : ∀ i : grid3.Coords, EltTy.bits .bf16 = 32 ∨ (Rect.block (s := S4x2048x16x64) S1x2048x16x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x1024.size a ≤ S4x2048x1024.size a
  hwx3_5 : ∀ i : grid3.Coords, EltTy.bits .f32 = 32 ∨ (Rect.block (s := S4x2048x1024) S1x256x1024.size (cc3_transform_5 i) (hinb3_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1x256x16x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x2048x16x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x2048x16x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21) S1x256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The idealized kernel's run with its result named. Every weakly fair execution of the program from a memory with zero
  counters terminates without a fault; in the final state the result buffer holds what the last of the four kernel
  regions leaves in it (the contents `W8` at the last segment boundary, read at the result's reference), and the eleven
  argument arrays are as launched. The contents at each boundary are a fold through the program: a stretch of host
  operations applies them, a region replaces its arrays by what its write-backs leave and keeps every other buffer.
-/
import proofs.«109171_j27779848471522_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v21) = W8 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v21 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Named

end
-- ==== Proof.Fold.lean ====
/-
  The buffers each of the four kernel regions is entered with, read back through the program to the launch memory.

  Before region 0 the host reshapes the three token arrays to `[8192, 1024]`, transposes each weight matrix and
  converts it to bf16, and reshapes the first bias to `[1, 1024]`; after each of the first three regions it reshapes that
  region's output to `[4, 2048, 16, 64]` and the next bias to `[1, 1024]`. No other operation writes these buffers, so
  what a region finds in one of them is that host operation applied to an argument array as launched, or to an earlier
  region's output.
-/
import proofs.«109171_j27779848471522_2_alg».proof.Proof.Gen.KernelIdeal.Frame

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Closes `after ops W b = W b` for a buffer `b` that no host operation of the stretch `ops` writes. -/
local macro "host_unwritten" : tactic =>
  `(tactic| exact StableHlo.after_of_forall_not_mem _ _ (List.forall_iff_forall_mem.mp (by
      simp only [hostOps0, hostOps1, hostOps2, hostOps3, List.flatten_cons, List.flatten_nil, List.append_nil,
        List.cons_append, List.nil_append, List.Forall, StableHlo.unary_writes, StableHlo.reshape_writes,
        Finset.mem_singleton]
      repeat' apply And.intro
      all_goals exact StableHlo.devRef_ne_of_ne (by decide))))

/-! ### Region 0 is entered with the reshaped tokens, the transposed bf16 weights and the reshaped bias -/

theorem in0_x :
    (V1 m ρ c main_v0 : (⟨S8192x1024, .f32⟩ : BufTy).Contents (Elt F))
      = shapeCast S8192x1024 (m ((c : Thread nD τ).loc main_arg0)) shapeCasts_S4x2048x1024_S8192x1024 := by
  show StableHlo.after hostOps0 (W0 m ρ c) (Proc.devRef .tc main_v0) = _
  after_results
  rfl

theorem in0_w :
    (V1 m ρ c main_v4 : (⟨S1024x1024, .bf16⟩ : BufTy).Contents (Elt F))
      = truncf .bf16 (transpose S1024x1024 [1, 0] (m ((c : Thread nD τ).loc main_arg3)) transposes_S1024x1024_S1024x1024_1_0)
          bitsLt_bf16_f32 := by
  show StableHlo.after hostOps0 (W0 m ρ c) (Proc.devRef .tc main_v4) = _
  after_results

theorem in0_b :
    (V1 m ρ c main_v11 : (⟨S1x1024, .f32⟩ : BufTy).Contents (Elt F))
      = shapeCast S1x1024 (m ((c : Thread nD τ).loc main_arg4)) shapeCasts_S1024_S1x1024 := by
  show StableHlo.after hostOps0 (W0 m ρ c) (Proc.devRef .tc main_v11) = _
  after_results
  rfl

/-! ### Region 1 -/

theorem in1_x :
    (V3 m ρ c main_v1 : (⟨S8192x1024, .f32⟩ : BufTy).Contents (Elt F))
      = shapeCast S8192x1024 (m ((c : Thread nD τ).loc main_arg1)) shapeCasts_S4x2048x1024_S8192x1024 := by
  have h3 : W3 m ρ c (Proc.devRef .tc main_v1) = W2 m ρ c (Proc.devRef .tc main_v1) := by host_unwritten
  have h2 : W2 m ρ c (Proc.devRef .tc main_v1) = W1 m ρ c (Proc.devRef .tc main_v1) := W2_of_ne m ρ c main_v1 (by decide)
  refine h3.trans (h2.trans ?_)
  show StableHlo.after hostOps0 (W0 m ρ c) (Proc.devRef .tc main_v1) = _
  after_results
  rfl

theorem in1_w :
    (V3 m ρ c main_v6 : (⟨S1024x1024, .bf16⟩ : BufTy).Contents (Elt F))
      = truncf .bf16 (transpose S1024x1024 [1, 0] (m ((c : Thread nD τ).loc main_arg5)) transposes_S1024x1024_S1024x1024_1_0)
          bitsLt_bf16_f32 := by
  have h3 : W3 m ρ c (Proc.devRef .tc main_v6) = W2 m ρ c (Proc.devRef .tc main_v6) := by host_unwritten
  have h2 : W2 m ρ c (Proc.devRef .tc main_v6) = W1 m ρ c (Proc.devRef .tc main_v6) := W2_of_ne m ρ c main_v6 (by decide)
  refine h3.trans (h2.trans ?_)
  show StableHlo.after hostOps0 (W0 m ρ c) (Proc.devRef .tc main_v6) = _
  after_results

/-- The second bias as launched, at region 0's exit. -/
theorem W2_arg6 : W2 m ρ c (Proc.devRef .tc main_arg6) = m ((c : Thread nD τ).loc main_arg6) := by
  have h2 : W2 m ρ c (Proc.devRef .tc main_arg6) = W1 m ρ c (Proc.devRef .tc main_arg6) := W2_of_ne m ρ c main_arg6 (by decide)
  have h1 : W1 m ρ c (Proc.devRef .tc main_arg6) = W0 m ρ c (Proc.devRef .tc main_arg6) := by host_unwritten
  exact h2.trans (h1.trans rfl)

theorem in1_b :
    (V3 m ρ c main_v14 : (⟨S1x1024, .f32⟩ : BufTy).Contents (Elt F))
      = shapeCast S1x1024 (m ((c : Thread nD τ).loc main_arg6)) shapeCasts_S1024_S1x1024 := by
  show StableHlo.after hostOps1 (W2 m ρ c) (Proc.devRef .tc main_v14) = _
  after_results
  rw [W2_arg6]
  rfl

/-! ### Region 2 -/

theorem in2_x :
    (V5 m ρ c main_v2 : (⟨S8192x1024, .f32⟩ : BufTy).Contents (Elt F))
      = shapeCast S8192x1024 (m ((c : Thread nD τ).loc main_arg2)) shapeCasts_S4x2048x1024_S8192x1024 := by
  have h5 : W5 m ρ c (Proc.devRef .tc main_v2) = W4 m ρ c (Proc.devRef .tc main_v2) := by host_unwritten
  have h4 : W4 m ρ c (Proc.devRef .tc main_v2) = W3 m ρ c (Proc.devRef .tc main_v2) := W4_of_ne m ρ c main_v2 (by decide)
  have h3 : W3 m ρ c (Proc.devRef .tc main_v2) = W2 m ρ c (Proc.devRef .tc main_v2) := by host_unwritten
  have h2 : W2 m ρ c (Proc.devRef .tc main_v2) = W1 m ρ c (Proc.devRef .tc main_v2) := W2_of_ne m ρ c main_v2 (by decide)
  refine h5.trans (h4.trans (h3.trans (h2.trans ?_)))
  show StableHlo.after hostOps0 (W0 m ρ c) (Proc.devRef .tc main_v2) = _
  after_results
  rfl

theorem in2_w :
    (V5 m ρ c main_v8 : (⟨S1024x1024, .bf16⟩ : BufTy).Contents (Elt F))
      = truncf .bf16 (transpose S1024x1024 [1, 0] (m ((c : Thread nD τ).loc main_arg7)) transposes_S1024x1024_S1024x1024_1_0)
          bitsLt_bf16_f32 := by
  have h5 : W5 m ρ c (Proc.devRef .tc main_v8) = W4 m ρ c (Proc.devRef .tc main_v8) := by host_unwritten
  have h4 : W4 m ρ c (Proc.devRef .tc main_v8) = W3 m ρ c (Proc.devRef .tc main_v8) := W4_of_ne m ρ c main_v8 (by decide)
  have h3 : W3 m ρ c (Proc.devRef .tc main_v8) = W2 m ρ c (Proc.devRef .tc main_v8) := by host_unwritten
  have h2 : W2 m ρ c (Proc.devRef .tc main_v8) = W1 m ρ c (Proc.devRef .tc main_v8) := W2_of_ne m ρ c main_v8 (by decide)
  refine h5.trans (h4.trans (h3.trans (h2.trans ?_)))
  show StableHlo.after hostOps0 (W0 m ρ c) (Proc.devRef .tc main_v8) = _
  after_results

/-- The third bias as launched, at region 1's exit. -/
theorem W4_arg8 : W4 m ρ c (Proc.devRef .tc main_arg8) = m ((c : Thread nD τ).loc main_arg8) := by
  have h4 : W4 m ρ c (Proc.devRef .tc main_arg8) = W3 m ρ c (Proc.devRef .tc main_arg8) := W4_of_ne m ρ c main_arg8 (by decide)
  have h3 : W3 m ρ c (Proc.devRef .tc main_arg8) = W2 m ρ c (Proc.devRef .tc main_arg8) := by host_unwritten
  have h2 : W2 m ρ c (Proc.devRef .tc main_arg8) = W1 m ρ c (Proc.devRef .tc main_arg8) := W2_of_ne m ρ c main_arg8 (by decide)
  have h1 : W1 m ρ c (Proc.devRef .tc main_arg8) = W0 m ρ c (Proc.devRef .tc main_arg8) := by host_unwritten
  exact h4.trans (h3.trans (h2.trans (h1.trans rfl)))

theorem in2_b :
    (V5 m ρ c main_v17 : (⟨S1x1024, .f32⟩ : BufTy).Contents (Elt F))
      = shapeCast S1x1024 (m ((c : Thread nD τ).loc main_arg8)) shapeCasts_S1024_S1x1024 := by
  show StableHlo.after hostOps2 (W4 m ρ c) (Proc.devRef .tc main_v17) = _
  after_results
  rw [W4_arg8]
  rfl

/-! ### Region 3 is entered with the three projections' outputs split into heads, the output weights and bias -/

theorem in3_q :
    (V7 m ρ c main_v13 : (⟨S4x2048x16x64, .bf16⟩ : BufTy).Contents (Elt F))
      = shapeCast S4x2048x16x64 ((dat0 (V1 m ρ) c).arrAt 3 cfg0.N) shapeCasts_S8192x1024_S4x2048x16x64 := by
  have h7 : W7 m ρ c (Proc.devRef .tc main_v13) = W6 m ρ c (Proc.devRef .tc main_v13) := by host_unwritten
  have h6 : W6 m ρ c (Proc.devRef .tc main_v13) = W5 m ρ c (Proc.devRef .tc main_v13) := W6_of_ne m ρ c main_v13 (by decide)
  have h5 : W5 m ρ c (Proc.devRef .tc main_v13) = W4 m ρ c (Proc.devRef .tc main_v13) := by host_unwritten
  have h4 : W4 m ρ c (Proc.devRef .tc main_v13) = W3 m ρ c (Proc.devRef .tc main_v13) := W4_of_ne m ρ c main_v13 (by decide)
  refine h7.trans (h6.trans (h5.trans (h4.trans ?_)))
  show StableHlo.after hostOps1 (W2 m ρ c) (Proc.devRef .tc main_v13) = _
  after_results
  rw [show W2 m ρ c (Proc.devRef .tc main_v12) = (dat0 (V1 m ρ) c).arrAt 3 cfg0.N from W2_arr m ρ c 3]
  rfl

theorem in3_k :
    (V7 m ρ c main_v16 : (⟨S4x2048x16x64, .bf16⟩ : BufTy).Contents (Elt F))
      = shapeCast S4x2048x16x64 ((dat1 (V3 m ρ) c).arrAt 3 cfg1.N) shapeCasts_S8192x1024_S4x2048x16x64 := by
  have h7 : W7 m ρ c (Proc.devRef .tc main_v16) = W6 m ρ c (Proc.devRef .tc main_v16) := by host_unwritten
  have h6 : W6 m ρ c (Proc.devRef .tc main_v16) = W5 m ρ c (Proc.devRef .tc main_v16) := W6_of_ne m ρ c main_v16 (by decide)
  refine h7.trans (h6.trans ?_)
  show StableHlo.after hostOps2 (W4 m ρ c) (Proc.devRef .tc main_v16) = _
  after_results
  rw [show W4 m ρ c (Proc.devRef .tc main_v15) = (dat1 (V3 m ρ) c).arrAt 3 cfg1.N from W4_arr m ρ c 3]
  rfl

theorem in3_v :
    (V7 m ρ c main_v19 : (⟨S4x2048x16x64, .bf16⟩ : BufTy).Contents (Elt F))
      = shapeCast S4x2048x16x64 ((dat2 (V5 m ρ) c).arrAt 3 cfg2.N) shapeCasts_S8192x1024_S4x2048x16x64 := by
  show StableHlo.after hostOps3 (W6 m ρ c) (Proc.devRef .tc main_v19) = _
  after_results
  rw [show W6 m ρ c (Proc.devRef .tc main_v18) = (dat2 (V5 m ρ) c).arrAt 3 cfg2.N from W6_arr m ρ c 3]
  rfl

theorem in3_w :
    (V7 m ρ c main_v10 : (⟨S1024x1024, .bf16⟩ : BufTy).Contents (Elt F))
      = truncf .bf16 (transpose S1024x1024 [1, 0] (m ((c : Thread nD τ).loc main_arg9)) transposes_S1024x1024_S1024x1024_1_0)
          bitsLt_bf16_f32 := by
  have h7 : W7 m ρ c (Proc.devRef .tc main_v10) = W6 m ρ c (Proc.devRef .tc main_v10) := by host_unwritten
  have h6 : W6 m ρ c (Proc.devRef .tc main_v10) = W5 m ρ c (Proc.devRef .tc main_v10) := W6_of_ne m ρ c main_v10 (by decide)
  have h5 : W5 m ρ c (Proc.devRef .tc main_v10) = W4 m ρ c (Proc.devRef .tc main_v10) := by host_unwritten
  have h4 : W4 m ρ c (Proc.devRef .tc main_v10) = W3 m ρ c (Proc.devRef .tc main_v10) := W4_of_ne m ρ c main_v10 (by decide)
  have h3 : W3 m ρ c (Proc.devRef .tc main_v10) = W2 m ρ c (Proc.devRef .tc main_v10) := by host_unwritten
  have h2 : W2 m ρ c (Proc.devRef .tc main_v10) = W1 m ρ c (Proc.devRef .tc main_v10) := W2_of_ne m ρ c main_v10 (by decide)
  refine h7.trans (h6.trans (h5.trans (h4.trans (h3.trans (h2.trans ?_)))))
  show StableHlo.after hostOps0 (W0 m ρ c) (Proc.devRef .tc main_v10) = _
  after_results

/-- The output bias as launched, at region 2's exit. -/
theorem W6_arg10 : W6 m ρ c (Proc.devRef .tc main_arg10) = m ((c : Thread nD τ).loc main_arg10) := by
  have h6 : W6 m ρ c (Proc.devRef .tc main_arg10) = W5 m ρ c (Proc.devRef .tc main_arg10) := W6_of_ne m ρ c main_arg10 (by decide)
  have h5 : W5 m ρ c (Proc.devRef .tc main_arg10) = W4 m ρ c (Proc.devRef .tc main_arg10) := by host_unwritten
  have h4 : W4 m ρ c (Proc.devRef .tc main_arg10) = W3 m ρ c (Proc.devRef .tc main_arg10) := W4_of_ne m ρ c main_arg10 (by decide)
  have h3 : W3 m ρ c (Proc.devRef .tc main_arg10) = W2 m ρ c (Proc.devRef .tc main_arg10) := by host_unwritten
  have h2 : W2 m ρ c (Proc.devRef .tc main_arg10) = W1 m ρ c (Proc.devRef .tc main_arg10) := W2_of_ne m ρ c main_arg10 (by decide)
  have h1 : W1 m ρ c (Proc.devRef .tc main_arg10) = W0 m ρ c (Proc.devRef .tc main_arg10) := by host_unwritten
  exact h6.trans (h5.trans (h4.trans (h3.trans (h2.trans (h1.trans rfl)))))

theorem in3_b :
    (V7 m ρ c main_v20 : (⟨S1x1024, .f32⟩ : BufTy).Contents (Elt F))
      = shapeCast S1x1024 (m ((c : Thread nD τ).loc main_arg10)) shapeCasts_S1024_S1x1024 := by
  show StableHlo.after hostOps3 (W6 m ρ c) (Proc.devRef .tc main_v20) = _
  after_results
  rw [W6_arg10]
  rfl

/-! ### The result is region 3's output as its write-backs leave it -/

theorem res : W8 m ρ c (Proc.devRef .tc main_v21) = (dat3 (V7 m ρ) c).arrAt 5 cfg3.N :=
  W8_arr m ρ c 5

end Cert.KernelIdeal.Fold

end
-- ==== Proof.Spec.lean ====
/-
  Multi-head attention over a batch of 4 sequences of 2048 tokens with 1024 features, 16 heads of 64 lanes,
  stated index by index on the extended reals.

  A projection is `y[n, s, e] = Σ_d x[n, s, d] · W[e, d] + b[e]`. Head `h` owns the features `64 h + d`, `d < 64`.
  For one query row `q` of a head and that head's key and value tables `K`, `V` (2048 rows of 64 lanes):
  the score against key `k` is `(Σ_e q e · K k e) · 2⁻³`; the row's maximum `mx` is the maximum of the scores folded
  from −∞; the weight of key `k` is `exp (score k − mx) / Σ_k' exp (score k' − mx)`; the head's output lane `d` is
  `Σ_k weight k · V k d`. The heads' outputs laid side by side, feature `j` being lane `j % 64` of head `j / 64`, go
  through the output projection. Nothing here mentions a program.
-/
import Idealize.ShloMosaic.PureOps.Ideal
import Idealize.ShloMosaic.Lib.ValueIdx

noncomputable section

namespace Cert.Mha

open Idealize.ShloMosaic Idealize.ShloMosaic.ValueIdx

/-- A batch of token rows `[4, 2048, 1024]`, a weight matrix `[1024, 1024]`, a bias `[1024]`. -/
abbrev Arr3 := (⟨3, ![4, 2048, 1024]⟩ : Shape).Idx → EReal
abbrev Mat := (⟨2, ![1024, 1024]⟩ : Shape).Idx → EReal
abbrev Bias := (⟨1, ![1024]⟩ : Shape).Idx → EReal

/-- Feature `64 h + d`: lane `d` of head `h`. -/
def feat (h : Fin 16) (d : Fin 64) : Fin 1024 := ⟨h.val * 64 + d.val, by have := h.isLt; have := d.isLt; omega⟩
/-- The head a feature belongs to, and its lane there. -/
def hd (j : Fin 1024) : Fin 16 := ⟨j.val / 64, by have := j.isLt; omega⟩
def ln (j : Fin 1024) : Fin 64 := ⟨j.val % 64, by omega⟩

theorem feat_hd_ln (j : Fin 1024) : feat (hd j) (ln j) = j := by
  apply Fin.ext; show j.val / 64 * 64 + j.val % 64 = j.val; omega

theorem hd_feat (h : Fin 16) (d : Fin 64) : hd (feat h d) = h := by
  apply Fin.ext; show (h.val * 64 + d.val) / 64 = h.val; have := d.isLt; omega

theorem ln_feat (h : Fin 16) (d : Fin 64) : ln (feat h d) = d := by
  apply Fin.ext; show (h.val * 64 + d.val) % 64 = d.val; have := d.isLt; omega

/-- The linear projection `x Wᵀ + b`, by coordinates. -/
def proj (x : Arr3) (W : Mat) (b : Bias) (n : Fin 4) (s : Fin 2048) (e : Fin 1024) : EReal :=
  (∑ d : Fin 1024, x (ix3 n s d) * W (ix2 e d)) + b (ix1 e)

/-- The scaled score of a query row against key `k`. -/
def score (q : Fin 64 → EReal) (K : Fin 2048 → Fin 64 → EReal) (k : Fin 2048) : EReal :=
  (∑ e : Fin 64, q e * K k e) * Ideal.ofBits .f32 0x3E000000#32

/-- The largest score of the row, folded from −∞. -/
def rowMax (q : Fin 64 → EReal) (K : Fin 2048 → Fin 64 → EReal) : EReal :=
  (Finset.univ : Finset (Fin 2048)).fold max (Ideal.ofBits .f32 0xFF800000#32) (fun k => score q K k)

/-- The unnormalised weight of key `k`. -/
def expo (q : Fin 64 → EReal) (K : Fin 2048 → Fin 64 → EReal) (k : Fin 2048) : EReal :=
  Ideal.exp (score q K k - rowMax q K)

/-- One head's output for one query row, lane `d`. -/
def headRow (q : Fin 64 → EReal) (K V : Fin 2048 → Fin 64 → EReal) (d : Fin 64) : EReal :=
  ∑ k : Fin 2048, Ideal.div (expo q K k) (∑ k' : Fin 2048, expo q K k') * V k d

/-- The heads' outputs side by side: feature `j` of token `s` of sequence `n`. -/
def attn (Q K V : Fin 4 → Fin 2048 → Fin 1024 → EReal) (n : Fin 4) (s : Fin 2048) (j : Fin 1024) : EReal :=
  headRow (fun e => Q n s (feat (hd j) e)) (fun k e => K n k (feat (hd j) e)) (fun k e => V n k (feat (hd j) e)) (ln j)

/-- The whole layer: project, attend per head, project out. -/
def G (q k v : Arr3) (Wq : Mat) (bq : Bias) (Wk : Mat) (bk : Bias) (Wv : Mat) (bv : Bias) (Wo : Mat) (bo : Bias) : Arr3 :=
  fun i => (∑ j : Fin 1024, attn (proj q Wq bq) (proj k Wk bk) (proj v Wv bv) (i 0) (i 1) j * Wo (ix2 (i 2) j)) + bo (ix1 (i 2))

end Cert.Mha

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibRowFolds.lean ====
/-
  Reductions along the LAST axis read at an index written by coordinates, at the exact (extended-real) values.

  On the device, a `vector.multi_reduction` over axis 1 of an `[a, b]` array read at `n`: with an add body from the
  neutral accumulator it is `Σ_k src (n, k)`; with a maximum body it is `max` folded over `k` from the accumulator's
  value. On the host, a `stablehlo.reduce` with a maximum body over axis 2 of an `[m, a, b]` array read at `(e, n)` is
  `max` folded over `k` of the operand at `(e, n, k)`, from the initial value. And the word of −∞ is neutral for `max`.
  General: nothing here mentions a program.
-/
import Idealize.ShloMosaic.PureOps.Ideal.Laws
import Idealize.ShloMosaic.Lib.ValueIdx

noncomputable section

namespace Cert.LibRowFolds

open Idealize.ShloMosaic Idealize.ShloMosaic.ValueIdx

/-- Inserting coordinate `k` on axis 1 into the reduced index `n` gives `(n, k)`. -/
theorem lift_row {a b : ℕ} (h : (⟨2, ![a, b]⟩ : Shape).Reduces [1] ⟨1, ![a]⟩) (n : Fin a) (k : Fin b) :
    h.lift (ix1 n) k = ix2 n k := by
  funext ax; apply Fin.ext
  match ax with
  | ⟨0, _⟩ => rfl
  | ⟨1, _⟩ => rfl

/-- A device sum over axis 1 of `[a, b]` from the neutral accumulator, at `n`, is `Σ_k src (n, k)`. -/
theorem rowSum_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (n : Fin a) :
    multiReduction .add [1] ⟨1, ![a]⟩ src acc h hφ hacc (ix1 n) = ∑ k : Fin b, src (ix2 n k) := by
  refine (Ideal.multiReduction_add_single src acc h hφ hacc (ix1 n)).trans ?_
  exact Finset.sum_congr rfl fun k _ => congrArg src (lift_row h n k)

/-- A device maximum over axis 1 of `[a, b]`, at `n`, is `max` folded over `k` from the accumulator's value. -/
theorem rowMax_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  exact congrArg (fun f => Finset.fold max (Ideal.ofBits .f32 acc) f (Finset.univ : Finset (Fin b)))
    (funext fun k => congrArg src (lift_row h n k))

/-- Inserting coordinate `k` on axis 2 into the reduced index `(e, n)` gives `(e, n, k)`. -/
theorem lift_last3 {m a b : ℕ} (h : (⟨3, ![m, a, b]⟩ : Shape).Reduces [2] ⟨2, ![m, a]⟩) (e : Fin m) (n : Fin a)
    (k : Fin b) : h.lift (ix2 e n) k = ix3 e n k := by
  funext ax; apply Fin.ext
  match ax with
  | ⟨0, _⟩ => rfl
  | ⟨1, _⟩ => rfl
  | ⟨2, _⟩ => rfl

/-- A host maximum over axis 2 of `[m, a, b]`, at `(e, n)`, is `max` folded over `k` from the initial value. -/
theorem hostMax_last3_at {m a b : ℕ} {u : Shape} (x : FVec Ideal ⟨3, ![m, a, b]⟩ .f32) (init : u.Idx → Ideal .f32)
    (h' : (⟨3, ![m, a, b]⟩ : Shape).ReducesTo [2] ⟨2, ![m, a]⟩) (h : (⟨3, ![m, a, b]⟩ : Shape).Reduces [2] ⟨2, ![m, a]⟩)
    (hu : 0 < u.numel) (e : Fin m) (n : Fin a) :
    Host.reduce FloatOps.maximumf x init h' hu (ix2 e n)
      = (Finset.univ : Finset (Fin b)).fold max (init (Shape.Idx.first hu)) (fun k => x (ix3 e n k)) := by
  refine (Host.reduce_eq_fold_single FloatOps.maximumf x init h' h hu (ix2 e n)).trans ?_
  exact congrArg (fun f => Finset.fold max (init (Shape.Idx.first hu)) f (Finset.univ : Finset (Fin b)))
    (funext fun k => congrArg x (lift_last3 h e n k))

/-- The value of the word of −∞ is the least extended real, so it is neutral for `max`. -/
theorem max_negInf (y : EReal) : max (Ideal.ofBits .f32 0xFF800000#32) y = y := by
  simp [Ideal.ofBits, Ideal.ieee]

end Cert.LibRowFolds

end
-- ==== Proof.Head.lean ====
/-
  One attention head of the kernel's body, read at an index on the extended reals.

  The body takes a query block `[1, 256, 1, 64]` and key and value blocks `[1, 2048, 1, 64]` of one head, drops the unit
  axes, multiplies the queries by the transposed keys, scales by 2⁻³, subtracts each row's maximum, exponentiates, divides
  by each row's sum, and multiplies by the values. Read at row `r`, lane `d`, that is the specification's `headRow` of the
  query row `r` and the key and value tables: every step is read at an index — the two products as sums over the contracted
  coordinate, the two row reductions as a fold of `max` and a sum, a column kept and spread back over its row as the
  column's entry. A change of float format is the identity on the extended reals. The sixteen heads of the body are
  written with their operations grouped differently; each grouping is the same composition of the same operations.
-/
import proofs.«109171_j27779848471522_2_alg».proof.Proof.Gen.KernelIdeal.Skeleton
import proofs.«109171_j27779848471522_2_alg».proof.Proof.Spec
import proofs.«109171_j27779848471522_2_alg».proof.Proof.LibKeepdims
import proofs.«109171_j27779848471522_2_alg».proof.Proof.LibPlainMatmul
import proofs.«109171_j27779848471522_2_alg».proof.Proof.LibRowFolds
import Idealize.ShloMosaic.Lib.Pipeline.Value
import Idealize.ShloMosaic.Lib.ValueIdx
import Idealize.ShloMosaic.PureOps.Ideal.Laws

noncomputable section

namespace Cert.KernelIdeal.Head

open Cert.KernelIdeal Cert.KernelIdeal.Gen Idealize.ShloMosaic Idealize.ShloMosaic.ValueIdx Cert.Mha

/-! ## The two products' dimension records send an output index and a contracted coordinate where a plain product does -/

theorem qk_l0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem qk_l1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem qk_r0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem qk_r1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

theorem pv_l0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_l1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem pv_r0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem pv_r1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-! ## The head's three stages, each a function of the stage before -/

/-- The scaled scores: queries times transposed keys, times 2⁻³. -/
def scoreV (Q : FVec Ideal S256x64 .bf16) (Kt : FVec Ideal S64x2048 .bf16) : FVec Ideal S256x2048 .f32 :=
  mulf (matmul dot_S256x64_S64x2048_S256x2048_1_0_0_1_n_n none Q Kt (constant S256x2048 .f32 0x00000000#32))
    (broadcast S256x2048 (Scalar.ofBits .f32 0x3E000000#32))

/-- Each row less its maximum, exponentiated. -/
def expV (S : FVec Ideal S256x2048 .f32) : FVec Ideal S256x2048 .f32 :=
  exp (subf S (broadcastTo S256x2048 (shapeCast S256x1
    (multiReduction .maximumf [1] S256 S 0xFF800000#32 reduces_S256x2048_S256 (.inl rfl) rfl) shapeCasts_S256_S256x1)
    broadcasts_S256x1_S256x2048))

/-- Each row divided by its sum. -/
def weightV (P : FVec Ideal S256x2048 .f32) : FVec Ideal S256x2048 .bf16 :=
  truncf .bf16 (divf P (broadcastTo S256x2048 (shapeCast S256x1
    (multiReduction .add [1] S256 P 0x00000000#32 reduces_S256x2048_S256 (.inl rfl) rfl) shapeCasts_S256_S256x1)
    broadcasts_S256x1_S256x2048)) bitsLt_bf16_f32

/-- The head: the weights times the values. -/
def headV (Q : FVec Ideal S256x64 .bf16) (Kt : FVec Ideal S64x2048 .bf16) (V : FVec Ideal S2048x64 .bf16) : FVec Ideal S256x64 .f32 :=
  matmul dot_S256x2048_S2048x64_S256x64_1_0_0_1_n_n none (weightV (expV (scoreV Q Kt))) V (constant S256x64 .f32 0x00000000#32)

theorem scoreV_at (Q : FVec Ideal S256x64 .bf16) (Kt : FVec Ideal S64x2048 .bf16) (r : Fin 256) (k : Fin 2048) :
    scoreV Q Kt (ix2 r k) = score (fun e => Q (ix2 r e)) (fun k e => Kt (ix2 e k)) k := by
  unfold scoreV score
  rw [mulf_apply, broadcast_apply]
  exact congrArg (· * Ideal.ofBits .f32 0x3E000000#32)
    (Cert.LibPlainMatmul.matmul_zero_at dot_S256x64_S64x2048_S256x2048_1_0_0_1_n_n none rfl rfl qk_l0 qk_l1 qk_r0 qk_r1 Q Kt r k)

/-- A column kept from a row reduction and spread back over the row reads the reduction's entry. -/
theorem keep_at (v : FVec Ideal S256 .f32) (r : Fin 256) (k : Fin 2048) :
    broadcastTo S256x2048 (shapeCast S256x1 v shapeCasts_S256_S256x1) broadcasts_S256x1_S256x2048 (ix2 r k) = v (ix1 r) := by
  rw [Cert.Keepdims.broadcastTo_a1_ab_apply, Cert.Keepdims.shapeCast_a_a1_apply]

theorem expV_at (S : FVec Ideal S256x2048 .f32) (r : Fin 256) (k : Fin 2048) :
    expV S (ix2 r k) = Ideal.exp (S (ix2 r k)
      - (Finset.univ : Finset (Fin 2048)).fold max (Ideal.ofBits .f32 0xFF800000#32) (fun k' => S (ix2 r k'))) := by
  unfold expV
  show Ideal.exp (subf S _ (ix2 r k)) = _
  rw [subf_apply, keep_at]
  exact congrArg (fun z => Ideal.exp (S (ix2 r k) - z)) (Cert.LibRowFolds.rowMax_at S _ _ _ _ r)

theorem weightV_at (P : FVec Ideal S256x2048 .f32) (r : Fin 256) (k : Fin 2048) :
    weightV P (ix2 r k) = Ideal.div (P (ix2 r k)) (∑ k' : Fin 2048, P (ix2 r k')) := by
  unfold weightV
  rw [truncf_apply, divf_apply, keep_at]
  exact congrArg (Ideal.div (P (ix2 r k))) (Cert.LibRowFolds.rowSum_at P _ _ _ _ r)

/-- THE HEAD AT AN INDEX: row `r`, lane `d` is the specification's head of query row `r`. -/
theorem headV_at (Q : FVec Ideal S256x64 .bf16) (Kt : FVec Ideal S64x2048 .bf16) (V : FVec Ideal S2048x64 .bf16)
    (r : Fin 256) (d : Fin 64) :
    headV Q Kt V (ix2 r d) = headRow (fun e => Q (ix2 r e)) (fun k e => Kt (ix2 e k)) (fun k e => V (ix2 k e)) d := by
  unfold headV
  refine (Cert.LibPlainMatmul.matmul_zero_at dot_S256x2048_S2048x64_S256x64_1_0_0_1_n_n none rfl rfl pv_l0 pv_l1 pv_r0 pv_r1
    (weightV (expV (scoreV Q Kt))) V r d).trans ?_
  unfold headRow expo rowMax
  refine Finset.sum_congr rfl fun k _ => ?_
  rw [weightV_at]
  simp only [expV_at, scoreV_at]

/-! ## The body's layout steps -/

/-- A query block with its unit axes dropped. -/
theorem castQ_at (a : Vec Ideal S1x256x1x64 .bf16) (r : Fin 256) (e : Fin 64) :
    shapeCast S256x64 a shapeCasts_S1x256x1x64_S256x64 (ix2 r e) = a (ix4 (0 : Fin 1) r (0 : Fin 1) e) :=
  shapeCast_apply a _ _ _ (by
    rw [Shape.rowMajor_val_four, Shape.rowMajor_val_two]
    show ((0 * 256 + r.val) * 1 + 0) * 64 + e.val = r.val * 64 + e.val
    omega)

/-- A key or value block with its unit axes dropped. -/
theorem castKV_at (b : Vec Ideal S1x2048x1x64 .bf16) (k : Fin 2048) (e : Fin 64) :
    shapeCast S2048x64 b shapeCasts_S1x2048x1x64_S2048x64 (ix2 k e) = b (ix4 (0 : Fin 1) k (0 : Fin 1) e) :=
  shapeCast_apply b _ _ _ (by
    rw [Shape.rowMajor_val_four, Shape.rowMajor_val_two]
    show ((0 * 2048 + k.val) * 1 + 0) * 64 + e.val = k.val * 64 + e.val
    omega)

/-- The transposed keys. -/
theorem transK_at (x : FVec Ideal S2048x64 .bf16) (e : Fin 64) (k : Fin 2048) :
    transpose S64x2048 [1, 0] x transposes_S2048x64_p1_0_S64x2048 (ix2 e k) = x (ix2 k e) :=
  transpose_apply _ x _ _ _ (fun b => by
    match b with
    | ⟨0, _⟩ => rfl
    | ⟨1, _⟩ => rfl)

/-- The body's first head is the head of its blocks, cast and transposed. -/
theorem pay4_eq (a : Vec Ideal S1x256x1x64 .bf16) (b c : Vec Ideal S1x2048x1x64 .bf16) :
    k3_pay4 a b c = truncf .bf16 (headV (shapeCast S256x64 a shapeCasts_S1x256x1x64_S256x64)
      (transpose S64x2048 [1, 0] (shapeCast S2048x64 b shapeCasts_S1x2048x1x64_S2048x64) transposes_S2048x64_p1_0_S64x2048)
      (shapeCast S2048x64 c shapeCasts_S1x2048x1x64_S2048x64)) bitsLt_bf16_f32 := rfl

/-- ONE HEAD OF THE BODY AT AN INDEX. -/
theorem pay4_at (a : Vec Ideal S1x256x1x64 .bf16) (b c : Vec Ideal S1x2048x1x64 .bf16) (r : Fin 256) (d : Fin 64) :
    k3_pay4 a b c (ix2 r d) = headRow (fun e => a (ix4 (0 : Fin 1) r (0 : Fin 1) e))
      (fun k e => b (ix4 (0 : Fin 1) k (0 : Fin 1) e)) (fun k e => c (ix4 (0 : Fin 1) k (0 : Fin 1) e)) d := by
  rw [pay4_eq, truncf_apply, headV_at]
  have e1 : (fun e : Fin 64 => shapeCast S256x64 a shapeCasts_S1x256x1x64_S256x64 (ix2 r e))
      = fun e => a (ix4 (0 : Fin 1) r (0 : Fin 1) e) := funext fun e => castQ_at a r e
  have e2 : (fun (k : Fin 2048) (e : Fin 64) => transpose S64x2048 [1, 0]
        (shapeCast S2048x64 b shapeCasts_S1x2048x1x64_S2048x64) transposes_S2048x64_p1_0_S64x2048 (ix2 e k))
      = fun k e => b (ix4 (0 : Fin 1) k (0 : Fin 1) e) :=
    funext fun k => funext fun e => (transK_at _ e k).trans (castKV_at b k e)
  have e3 : (fun (k : Fin 2048) (e : Fin 64) => shapeCast S2048x64 c shapeCasts_S1x2048x1x64_S2048x64 (ix2 k e))
      = fun k e => c (ix4 (0 : Fin 1) k (0 : Fin 1) e) := funext fun k => funext fun e => castKV_at c k e
  exact congrFun (congr (congr (congrArg headRow e1) e2) e3) d

/-! ## The sixteen heads are one function of their blocks -/

section Groupings
variable {F : FTy → Type} [FloatOps F]
variable (a : Vec F S1x256x1x64 .bf16) (b c : Vec F S1x2048x1x64 .bf16)

theorem head1_eq : k3_pay8 (k3_pay5 a) (k3_pay6 c) (k3_pay7 b) = k3_pay4 a b c := rfl
theorem head2_eq : k3_pay9 a b c = k3_pay4 a b c := rfl
theorem head3_eq : k3_pay10 a b c = k3_pay4 a b c := rfl
theorem head4_eq : k3_pay13 (k3_pay11 c) (k3_pay12 a b) (Scalar.ofBits .f32 0x3E000000#32) = k3_pay4 a b c := rfl
theorem head5_eq : k3_pay14 a b c = k3_pay4 a b c := rfl
theorem head6_eq : k3_pay15 a b c = k3_pay4 a b c := rfl
theorem head7_eq : k3_pay18 (k3_pay16 c) (k3_pay17 a b) = k3_pay4 a b c := rfl
theorem head8_eq : k3_pay19 a b c = k3_pay4 a b c := rfl
theorem head9_eq : k3_pay21 (k3_pay20 a) b c = k3_pay4 a b c := rfl
theorem head10_eq : k3_pay25 (k3_pay22 c) (k3_pay23 a b) (k3_pay24 a b) = k3_pay4 a b c := rfl
theorem head11_eq : k3_pay26 a b c = k3_pay4 a b c := rfl
theorem head12_eq : k3_pay28 (k3_pay27 a) b c = k3_pay4 a b c := rfl
theorem head13_eq : k3_pay31 (k3_pay29 c) (k3_pay30 a b) = k3_pay4 a b c := rfl
theorem head14_eq : k3_pay32 a b c = k3_pay4 a b c := rfl
theorem head15_eq : truncf .bf16 (k3_pay1 (k3_pay33 a) (k3_pay34 b) c) bitsLt_bf16_f32 = k3_pay4 a b c := rfl

end Groupings

end Cert.KernelIdeal.Head

end
-- ==== Proof.Payloads.lean ====
/-
  The bodies of the linear kernels and the last step of the attention kernel, read at an index on the extended reals.

  A linear kernel's body takes a block of 1024 rows `x`, the transposed weights `Wᵀ` and the bias as a row `[1, 1024]`,
  and leaves `x · Wᵀ + bias`: at `(p, e)` that is `Σ_d x (p, d) · Wᵀ (d, e) + bias (0, e)` — the product into the zero
  accumulator is the sum over the contracted coordinate, the bias row is spread over the rows, a cast to the same shape and
  a change of float format are the identity. The three linear kernels have one body. The attention kernel's last step is the
  same shape of computation on 256 rows, cast to a block `[1, 256, 1024]`.
-/
import proofs.«109171_j27779848471522_2_alg».proof.Proof.Gen.KernelIdeal.Skeleton
import proofs.«109171_j27779848471522_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-! ## Where the two products' dimension records send an output index and a contracted coordinate -/

theorem lin_l0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lin_l1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem lin_r0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem lin_r1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem outp_l0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem outp_l1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem outp_r0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem outp_r1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-! ## The linear body -/

/-- THE LINEAR BODY AT AN INDEX: row `p` of the block against column `e` of the transposed weights, plus the bias. -/
theorem lin_at (x0 : Vec Ideal S1024x1024 .f32) (x1 : Vec Ideal S1024x1024 .bf16) (x2 : Vec Ideal S1x1024 .f32)
    (p e : Fin 1024) :
    k0_pay1 x0 x1 x2 (ix2 p e) = (∑ d : Fin 1024, x0 (ix2 p d) * x1 (ix2 d e)) + x2 (ix2 (0 : Fin 1) e) := by
  unfold k0_pay1
  rw [truncf_apply, addf_apply]
  refine congrArg₂ (· + ·) ?_ ?_
  · refine (Cert.LibPlainMatmul.matmul_zero_at dot_S1024x1024_S1024x1024_S1024x1024_1_0_0_1_n_n none rfl rfl lin_l0 lin_l1 lin_r0 lin_r1 _ _ p e).trans ?_
    refine Finset.sum_congr rfl fun d _ => ?_
    rw [truncf_apply, shapeCast_self, shapeCast_self]
  · rw [shapeCast_self]
    exact broadcastTo_1b_ab_apply x2 _ p e

variable {F : FTy → Type} [FloatOps F] in
/-- The second and third linear kernels have the first one's body. -/
theorem k1_eq (x0 : Vec F S1024x1024 .f32) (x1 : Vec F S1024x1024 .bf16) (x2 : Vec F S1x1024 .f32) :
    k1_pay1 x0 x1 x2 = k0_pay1 x0 x1 x2 := rfl
variable {F : FTy → Type} [FloatOps F] in
theorem k2_eq (x0 : Vec F S1024x1024 .f32) (x1 : Vec F S1024x1024 .bf16) (x2 : Vec F S1x1024 .f32) :
    k2_pay1 x0 x1 x2 = k0_pay1 x0 x1 x2 := rfl

/-! ## The attention body's output projection -/

/-- THE OUTPUT PROJECTION AT AN INDEX: row `r` of the heads laid side by side against column `e` of the transposed
    output weights, plus the bias, in a block with a leading unit axis. -/
theorem outp_at (C : FVec Ideal S256x1024 .bf16) (W : Vec Ideal S1024x1024 .bf16) (B : Vec Ideal S1x1024 .f32)
    (r : Fin 256) (e : Fin 1024) :
    k3_pay3 C W B (ix3 (0 : Fin 1) r e) = (∑ j : Fin 1024, C (ix2 r j) * W (ix2 j e)) + B (ix2 (0 : Fin 1) e) := by
  unfold k3_pay3
  refine (shapeCast_ab_1ab_apply _ _ (0 : Fin 1) r e).trans ?_
  rw [addf_apply]
  refine congrArg₂ (· + ·) ?_ ?_
  · refine (Cert.LibPlainMatmul.matmul_zero_at dot_S256x1024_S1024x1024_S256x1024_1_0_0_1_n_n none rfl rfl outp_l0 outp_l1 outp_r0 outp_r1 _ _ r e).trans ?_
    refine Finset.sum_congr rfl fun j _ => ?_
    rw [shapeCast_self]
  · rw [shapeCast_self]
    exact broadcastTo_1b_ab_apply B _ r e

end Cert.KernelIdeal.Payloads

end
-- ==== Proof.Attn.lean ====
/-
  What the attention kernel leaves in its output array, as one function of the arrays it is entered with.

  At a grid point the body reads a query block `[1, 256, 16, 64]` (256 token rows of one sequence, all sixteen heads), that
  sequence's whole key and value arrays `[1, 2048, 16, 64]`, the transposed output weights and the bias row. Head `h` loads
  the slices `[·, ·, h, ·]`; the sixteen heads' outputs are laid side by side, feature `j` being lane `j % 64` of head
  `j / 64`, and go through the output projection. Read at row `r`, column `e` of the block this is
  `Σ_j headRow(query row r of head j/64; keys, values of head j/64)(j % 64) · Woᵀ(j, e) + bias(0, e)`.
  A block's element sits in its array at block index × block size + the coordinate inside the block on every axis; the
  query and output blocks move together over the grid, the key and value blocks follow the sequence only, the weights and
  the bias stay; the output blocks tile `[4, 2048, 1024]` (row block `s / 256` of sequence `n`), so the array ends holding
  that function everywhere.
-/
import proofs.«109171_j27779848471522_2_alg».proof.Proof.Gen.KernelIdeal.Frame
import proofs.«109171_j27779848471522_2_alg».proof.Proof.Head
import proofs.«109171_j27779848471522_2_alg».proof.Proof.Payloads
import proofs.«109171_j27779848471522_2_alg».proof.Proof.Spec
import Idealize.ShloMosaic.Lib.Pipeline.Value
import Idealize.ShloMosaic.Lib.ValueIdx

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx Cert.KernelIdeal.Head Cert.KernelIdeal.Payloads Cert.Mha
open Idealize.ShloMosaic.Pipeline (Dat)

/-! ## The sixteen heads as one function of the head's number -/

theorem inbQ (h : Fin 16) : ∀ a : Fin S1x256x16x64.rank,
    (![0, 0, h.val, 0] : Fin S1x256x16x64.rank → ℕ) a + S1x256x1x64.size a ≤ S1x256x16x64.size a := by
  intro a; have := h.isLt
  match a with
  | ⟨0, _⟩ => show 0 + 1 ≤ 1; omega
  | ⟨1, _⟩ => show 0 + 256 ≤ 256; omega
  | ⟨2, _⟩ => show h.val + 1 ≤ 16; omega
  | ⟨3, _⟩ => show 0 + 64 ≤ 64; omega
theorem inbK (h : Fin 16) : ∀ a : Fin S1x2048x16x64.rank,
    (![0, 0, h.val, 0] : Fin S1x2048x16x64.rank → ℕ) a + S1x2048x1x64.size a ≤ S1x2048x16x64.size a := by
  intro a; have := h.isLt
  match a with
  | ⟨0, _⟩ => show 0 + 1 ≤ 1; omega
  | ⟨1, _⟩ => show 0 + 2048 ≤ 2048; omega
  | ⟨2, _⟩ => show h.val + 1 ≤ 16; omega
  | ⟨3, _⟩ => show 0 + 64 ≤ 64; omega

/-- Head `h`'s slice of a query block, and of a key or value block. -/
abbrev rectQ (h : Fin 16) : Rect S1x256x16x64 := Rect.unit (s := S1x256x16x64) ![0, 0, h.val, 0] S1x256x1x64.size (inbQ h)
abbrev rectK (h : Fin 16) : Rect S1x2048x16x64 := Rect.unit (s := S1x2048x16x64) ![0, 0, h.val, 0] S1x2048x1x64.size (inbK h)

section AnyF
variable {F : FTy → Type} [FloatOps F]

/-- Head `h` of the body, from the three blocks. -/
def headOf (x0 : Vec F S1x256x16x64 .bf16) (x1 x2 : Vec F S1x2048x16x64 .bf16) (h : Fin 16) : FVec F S256x64 .bf16 :=
  k3_pay4 (View.ld x0 (rectQ h)) (View.ld x1 (rectK h)) (View.ld x2 (rectK h))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store: the output projection of the sixteen heads laid side by side. -/
theorem out_eq (x0 : Vec F S1x256x16x64 .bf16) (x1 x2 : Vec F S1x2048x16x64 .bf16) (x3 : Vec F S1024x1024 .bf16) (x4 : Vec F S1x1024 .f32) :
    out3_5 x0 x1 x2 x3 x4 = k3_pay3 (concatenate S256x1024 1 (List.ofFn fun h : Fin 16 => (⟨S256x64, headOf x0 x1 x2 h⟩ : (s : Shape) × (s.Idx → Elt F .bf16)))
      concatenates_S256x64_S256x64_S256x64_S256x64_S256x64_S256x64_S256x64_S256x64_S256x64_S256x64_S256x64_S256x64_S256x64_S256x64_S256x64_S256x64_S256x1024_d1) x3 x4 := by
  unfold out3_5
  rw [View.canon_unit_zero hz3]
  rw [View.ld_unit_zero (S := S1024x1024) hz2, View.ld_unit_zero (S := S1x1024) hz2]
  rw [head1_eq, head2_eq, head3_eq, head4_eq, head5_eq, head6_eq, head7_eq, head8_eq, head9_eq, head10_eq, head11_eq, head12_eq, head13_eq, head14_eq]
  unfold k3_pay2
  dsimp only
  rw [head15_eq]
  rfl

end AnyF

/-! ## The block at an index -/

/-- Head `h`'s query slice at `(0, r, 0, e)` is the block at `(0, r, h, e)`. -/
theorem ldQ_at (x : Vec Ideal S1x256x16x64 .bf16) (h : Fin 16) (r : Fin 256) (e : Fin 64) :
    View.ld x (rectQ h) (ix4 (0 : Fin 1) r (0 : Fin 1) e) = x (ix4 (0 : Fin 1) r h e) := by
  show x ((rectQ h).emb (ix4 (0 : Fin 1) r (0 : Fin 1) e)) = _
  refine congrArg x (funext fun a => Fin.ext ?_)
  match a with
  | ⟨0, _⟩ => rfl
  | ⟨1, _⟩ => show 0 + 1 * r.val = r.val; omega
  | ⟨2, _⟩ => show h.val + 1 * 0 = h.val; omega
  | ⟨3, _⟩ => show 0 + 1 * e.val = e.val; omega

theorem ldK_at (x : Vec Ideal S1x2048x16x64 .bf16) (h : Fin 16) (k : Fin 2048) (e : Fin 64) :
    View.ld x (rectK h) (ix4 (0 : Fin 1) k (0 : Fin 1) e) = x (ix4 (0 : Fin 1) k h e) := by
  show x ((rectK h).emb (ix4 (0 : Fin 1) k (0 : Fin 1) e)) = _
  refine congrArg x (funext fun a => Fin.ext ?_)
  match a with
  | ⟨0, _⟩ => rfl
  | ⟨1, _⟩ => show 0 + 1 * k.val = k.val; omega
  | ⟨2, _⟩ => show h.val + 1 * 0 = h.val; omega
  | ⟨3, _⟩ => show 0 + 1 * e.val = e.val; omega

/-- Head `h` at row `r`, lane `d`. -/
theorem headOf_at (x0 : Vec Ideal S1x256x16x64 .bf16) (x1 x2 : Vec Ideal S1x2048x16x64 .bf16) (h : Fin 16) (r : Fin 256) (d : Fin 64) :
    headOf x0 x1 x2 h (ix2 r d) = headRow (fun e => x0 (ix4 (0 : Fin 1) r h e)) (fun k e => x1 (ix4 (0 : Fin 1) k h e))
      (fun k e => x2 (ix4 (0 : Fin 1) k h e)) d := by
  unfold headOf
  refine (pay4_at _ _ _ r d).trans ?_
  exact congrFun (congr (congr (congrArg headRow (funext fun e => ldQ_at x0 h r e))
    (funext fun k => funext fun e => ldK_at x1 h k e)) (funext fun k => funext fun e => ldK_at x2 h k e)) d

/-- Sixteen `[256, 64]` pieces side by side: feature `j` of row `r` is lane `j % 64` of piece `j / 64`. -/
theorem concat_at (f : Fin 16 → FVec Ideal S256x64 .bf16) (r : Fin 256) (j : Fin 1024) :
    concatenate S256x1024 1 (List.ofFn fun h : Fin 16 => (⟨S256x64, f h⟩ : (s : Shape) × (s.Idx → Elt Ideal .bf16)))
      concatenates_S256x64_S256x64_S256x64_S256x64_S256x64_S256x64_S256x64_S256x64_S256x64_S256x64_S256x64_S256x64_S256x64_S256x64_S256x64_S256x64_S256x1024_d1 (ix2 r j) = f (hd j) (ix2 r (ln j)) :=
  concatenate_ofFn_apply (1 : Fin S256x1024.rank) f _ rfl 64 rfl (ix2 r j) (hd j) rfl (ix2 r (ln j)) rfl (fun b hb => by
    match b with
    | ⟨0, _⟩ => rfl
    | ⟨1, _⟩ => exact absurd rfl hb)

/-- THE BLOCK AT AN INDEX. -/
theorem out_at (x0 : Vec Ideal S1x256x16x64 .bf16) (x1 x2 : Vec Ideal S1x2048x16x64 .bf16) (x3 : Vec Ideal S1024x1024 .bf16)
    (x4 : Vec Ideal S1x1024 .f32) (r : Fin 256) (e : Fin 1024) :
    out3_5 x0 x1 x2 x3 x4 (ix3 (0 : Fin 1) r e)
      = (∑ j : Fin 1024, headRow (fun e' => x0 (ix4 (0 : Fin 1) r (hd j) e')) (fun k e' => x1 (ix4 (0 : Fin 1) k (hd j) e'))
          (fun k e' => x2 (ix4 (0 : Fin 1) k (hd j) e')) (ln j) * x3 (ix2 j e)) + x4 (ix2 (0 : Fin 1) e) := by
  rw [out_eq, outp_at]
  refine congrArg₂ (· + ·) (Finset.sum_congr rfl fun j _ => congrArg (· * x3 (ix2 j e)) ?_) rfl
  exact (concat_at (headOf x0 x1 x2) r j).trans (headOf_at x0 x1 x2 (hd j) r (ln j))

/-! ## The array after the region -/

/-- What the region leaves, from the arrays it is entered with: the projected queries, keys and values seen as
    `[4, 2048, 16, 64]`, the transposed output weights, the bias row. -/
def attnG (Qh Kh Vh : S4x2048x16x64.Idx → EReal) (Wt : S1024x1024.Idx → EReal) (B : S1x1024.Idx → EReal) :
    S4x2048x1024.Idx → EReal :=
  fun i => (∑ j : Fin 1024, headRow (fun e' => Qh (ix4 (i 0) (i 1) (hd j) e')) (fun k e' => Kh (ix4 (i 0) k (hd j) e'))
      (fun k e' => Vh (ix4 (i 0) k (hd j) e')) (ln j) * Wt (ix2 j (i 2))) + B (ix2 (0 : Fin 1) (i 2))

/-- The printed index maps, decided over the grid. -/
theorem idx_facts3 : ∀ t : Fin cfg3.N,
    win3_0.index t (0 : Fin 4) = win3_5.index t (0 : Fin 3) ∧ win3_0.index t (1 : Fin 4) = win3_5.index t (1 : Fin 3)
    ∧ win3_0.index t (2 : Fin 4) = 0 ∧ win3_0.index t (3 : Fin 4) = 0
    ∧ win3_1.index t (0 : Fin 4) = win3_5.index t (0 : Fin 3) ∧ win3_1.index t (1 : Fin 4) = 0
    ∧ win3_1.index t (2 : Fin 4) = 0 ∧ win3_1.index t (3 : Fin 4) = 0
    ∧ win3_2.index t (0 : Fin 4) = win3_5.index t (0 : Fin 3) ∧ win3_2.index t (1 : Fin 4) = 0
    ∧ win3_2.index t (2 : Fin 4) = 0 ∧ win3_2.index t (3 : Fin 4) = 0
    ∧ win3_3.index t (0 : Fin 2) = 0 ∧ win3_3.index t (1 : Fin 2) = 0
    ∧ win3_4.index t (0 : Fin 2) = 0 ∧ win3_4.index t (1 : Fin 2) = 0
    ∧ win3_5.index t (2 : Fin 3) = 0 ∧ win3_5.index t (0 : Fin 3) ≤ 3 ∧ win3_5.index t (1 : Fin 3) ≤ 7 :=
  (by decide +kernel : ∀ t : Fin grid3.N, _)

/-- Every block of the output array is some point's. -/
theorem idx_onto3 : ∀ (q0 : Fin 4) (q1 : Fin 8), ∃ t : Fin cfg3.N, win3_5.index t = ![q0.val, q1.val, 0] :=
  (by decide +kernel : ∀ (q0 : Fin 4) (q1 : Fin 8), ∃ t : Fin grid3.N, win3_5.index t = ![q0.val, q1.val, 0])

variable (V : (c : Dev nD) → (b : Ref sig .tc) → Buf (Elt Ideal) ((c : Thread nD τ).loc b))

/-- WHAT POINT `t` WRITES BACK is block `t` of `attnG` of the arrays the region is entered with. -/
theorem flushed3 (c : Dev nD) (t : Fin cfg3.N) :
    (dat3 V c).flushed 5 t = ((cfg3.win 5).blk t).view.read (Elt Ideal)
      (attnG (V c main_v13) (V c main_v16) (V c main_v19) (V c main_v10) (V c main_v20)) := by
  show (cfg3.win 5).cut (grid3.coords t) ((dat3 V c).after 5 t) = _
  rw [after3_5]
  obtain ⟨f00, f01, f02, f03, f10, f11, f12, f13, f20, f21, f22, f23, f30, f31, f40, f41, f52, b0, b1⟩ := idx_facts3 t
  funext y
  obtain ⟨u, r, e, rfl⟩ : ∃ (u : Fin 1) (r : Fin 256) (e : Fin 1024), y = ix3 u r e := ⟨y 0, y 1, y 2, eq_ix3 y⟩
  obtain rfl : u = 0 := Subsingleton.elim _ _
  refine (out_at (iblk3 V c 0 t) (iblk3 V c 1 t) (iblk3 V c 2 t) (iblk3 V c 3 t) (iblk3 V c 4 t) r e).trans ?_
  show _ = attnG (V c main_v13) (V c main_v16) (V c main_v19) (V c main_v10) (V c main_v20)
    (((cfg3.win 5).blk t).view.emb (ix3 (0 : Fin 1) r e))
  unfold attnG
  refine congrArg₂ (· + ·) (Finset.sum_congr rfl fun j _ => congrArg₂ (· * ·) ?_ ?_) ?_
  · refine congrFun (congr (congr (congrArg headRow (funext fun e' => ?_)) (funext fun k => funext fun e' => ?_))
      (funext fun k => funext fun e' => ?_)) (ln j)
    · show V c main_v13 (((cfg3.win 0).blk t).view.emb (ix4 (0 : Fin 1) r (hd j) e')) = _
      refine congrArg (V c main_v13) (funext fun a => Fin.ext ?_)
      match a with
      | ⟨0, _⟩ => show win3_0.index t (0 : Fin 4) * 1 + 1 * 0 = win3_5.index t (0 : Fin 3) * 1 + 1 * 0; omega
      | ⟨1, _⟩ => show win3_0.index t (1 : Fin 4) * 256 + 1 * r.val = win3_5.index t (1 : Fin 3) * 256 + 1 * r.val; omega
      | ⟨2, _⟩ => show win3_0.index t (2 : Fin 4) * 16 + 1 * (hd j).val = (hd j).val; omega
      | ⟨3, _⟩ => show win3_0.index t (3 : Fin 4) * 64 + 1 * e'.val = e'.val; omega
    · show V c main_v16 (((cfg3.win 1).blk t).view.emb (ix4 (0 : Fin 1) k (hd j) e')) = _
      refine congrArg (V c main_v16) (funext fun a => Fin.ext ?_)
      match a with
      | ⟨0, _⟩ => show win3_1.index t (0 : Fin 4) * 1 + 1 * 0 = win3_5.index t (0 : Fin 3) * 1 + 1 * 0; omega
      | ⟨1, _⟩ => show win3_1.index t (1 : Fin 4) * 2048 + 1 * k.val = k.val; omega
      | ⟨2, _⟩ => show win3_1.index t (2 : Fin 4) * 16 + 1 * (hd j).val = (hd j).val; omega
      | ⟨3, _⟩ => show win3_1.index t (3 : Fin 4) * 64 + 1 * e'.val = e'.val; omega
    · show V c main_v19 (((cfg3.win 2).blk t).view.emb (ix4 (0 : Fin 1) k (hd j) e')) = _
      refine congrArg (V c main_v19) (funext fun a => Fin.ext ?_)
      match a with
      | ⟨0, _⟩ => show win3_2.index t (0 : Fin 4) * 1 + 1 * 0 = win3_5.index t (0 : Fin 3) * 1 + 1 * 0; omega
      | ⟨1, _⟩ => show win3_2.index t (1 : Fin 4) * 2048 + 1 * k.val = k.val; omega
      | ⟨2, _⟩ => show win3_2.index t (2 : Fin 4) * 16 + 1 * (hd j).val = (hd j).val; omega
      | ⟨3, _⟩ => show win3_2.index t (3 : Fin 4) * 64 + 1 * e'.val = e'.val; omega
  · show V c main_v10 (((cfg3.win 3).blk t).view.emb (ix2 j e)) = _
    refine congrArg (V c main_v10) (funext fun a => Fin.ext ?_)
    match a with
    | ⟨0, _⟩ => show win3_3.index t (0 : Fin 2) * 1024 + 1 * j.val = j.val; omega
    | ⟨1, _⟩ => show win3_3.index t (1 : Fin 2) * 1024 + 1 * e.val = win3_5.index t (2 : Fin 3) * 1024 + 1 * e.val; omega
  · show V c main_v20 (((cfg3.win 4).blk t).view.emb (ix2 (0 : Fin 1) e)) = _
    refine congrArg (V c main_v20) (funext fun a => Fin.ext ?_)
    match a with
    | ⟨0, _⟩ => show win3_4.index t (0 : Fin 2) * 1 + 1 * 0 = 0; omega
    | ⟨1, _⟩ => show win3_4.index t (1 : Fin 2) * 1024 + 1 * e.val = win3_5.index t (2 : Fin 3) * 1024 + 1 * e.val; omega

/-- An index of the output array is in point `t`'s block iff each coordinate is in the block's range on its axis. -/
theorem mem_blk3 (t : Fin cfg3.N) (i : S4x2048x1024.Idx) :
    i ∈ ((cfg3.win 5).blk t).view.set ↔ ∀ a : Fin 3, win3_5.index t a * S1x256x1024.size a ≤ (i a).val
      ∧ (i a).val < win3_5.index t a * S1x256x1024.size a + S1x256x1024.size a := by
  show i ∈ ((View.whole main_v21).slice (win3_5.rect t)).set ↔ _
  rw [View.set_slice_whole, Rect.mem_set_unit]
  exact Iff.rfl

/-- THE ARRAY after the region. -/
theorem final3 (c : Dev nD) : (dat3 V c).arrAt 5 cfg3.N
    = attnG (V c main_v13) (V c main_v16) (V c main_v19) (V c main_v10) (V c main_v20) :=
  (dat3 V c).arrAt_eq_of_cover 5 _ (fun t _ => flushed3 V c t) fun i => by
    have hi0 : (i 0).val < 4 := (i 0).isLt
    have hi1 : (i 1).val < 2048 := (i 1).isLt
    have hi2 : (i 2).val < 1024 := (i 2).isLt
    obtain ⟨t, ht⟩ := idx_onto3 ⟨(i 0).val, hi0⟩ ⟨(i 1).val / 256, by omega⟩
    have q0 : win3_5.index t (0 : Fin 3) = (i 0).val := congrFun ht 0
    have q1 : win3_5.index t (1 : Fin 3) = (i 1).val / 256 := congrFun ht 1
    have q2 : win3_5.index t (2 : Fin 3) = 0 := congrFun ht 2
    refine ⟨t, flush3_5 t, ?_⟩
    rw [mem_blk3]
    intro a
    match a with
    | ⟨0, _⟩ => show win3_5.index t (0 : Fin 3) * 1 ≤ (i 0).val ∧ (i 0).val < win3_5.index t (0 : Fin 3) * 1 + 1; omega
    | ⟨1, _⟩ => show win3_5.index t (1 : Fin 3) * 256 ≤ (i 1).val ∧ (i 1).val < win3_5.index t (1 : Fin 3) * 256 + 256; omega
    | ⟨2, _⟩ => show win3_5.index t (2 : Fin 3) * 1024 ≤ (i 2).val ∧ (i 2).val < win3_5.index t (2 : Fin 3) * 1024 + 1024; omega

end Cert.KernelIdeal.Attn

end
-- ==== Proof.LinG.lean ====
/-
  What a linear kernel leaves in its output array `[8192, 1024]`, from the arrays it is entered with: the rows `X`, the
  transposed weights `Wᵀ` and the bias as a row. Entry `(i, e)` is `Σ_d X (i, d) · Wᵀ (d, e) + bias (0, e)`.
-/
import proofs.«109171_j27779848471522_2_alg».proof.KernelIdeal
import Idealize.ShloMosaic.PureOps.Ideal
import Idealize.ShloMosaic.Lib.ValueIdx

noncomputable section

namespace Cert.KernelIdeal.Lin

open Cert.KernelIdeal Idealize.ShloMosaic Idealize.ShloMosaic.ValueIdx

/-- `X · Wᵀ + bias`, index by index. -/
def linG (X : S8192x1024.Idx → EReal) (Wt : S1024x1024.Idx → EReal) (B : S1x1024.Idx → EReal) : S8192x1024.Idx → EReal :=
  fun i => (∑ d : Fin 1024, X (ix2 (i 0) d) * Wt (ix2 d (i 1))) + B (ix2 (0 : Fin 1) (i 1))

end Cert.KernelIdeal.Lin

end
-- ==== Proof.Linear0.lean ====
/-
  What linear kernel 0 leaves in its output array, as one function of the arrays it is entered with.

  At grid point `t` the body reads rows `1024 t … 1024 t + 1023` of the input, the whole transposed weight matrix and the
  bias row, and writes the same rows of the output: a block's element sits in its array at block index × block size + the
  coordinate inside the block, the input and output row blocks move together, the weights and the bias stay. The eight row
  blocks tile the 8192 rows, so the array ends holding `X · Wᵀ + bias` everywhere.
-/
import proofs.«109171_j27779848471522_2_alg».proof.Proof.Gen.KernelIdeal.Frame
import proofs.«109171_j27779848471522_2_alg».proof.Proof.Payloads
import proofs.«109171_j27779848471522_2_alg».proof.Proof.LinG
import Idealize.ShloMosaic.Lib.Pipeline.Value
import Idealize.ShloMosaic.Lib.ValueIdx

set_option maxRecDepth 16384

noncomputable section

namespace Cert.KernelIdeal.Lin0

open Cert.KernelIdeal Cert.KernelIdeal.Gen Idealize.ShloMosaic Idealize.ShloMosaic.TcCoe Idealize.SL.Sem
open Idealize.ShloMosaic.ValueIdx Cert.KernelIdeal.Payloads Cert.KernelIdeal.Lin
open Idealize.ShloMosaic.Pipeline (Dat)

theorem hz2 : (![0, 0] : Fin 2 → Nat) = fun _ => 0 := funext fun a => by fin_cases a <;> rfl

/-- The printed index maps, decided over the grid. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block of the output array is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

variable (V : (c : Dev nD) → (b : Ref sig .tc) → Buf (Elt Ideal) ((c : Thread nD τ).loc b))

/-- WHAT POINT `t` WRITES BACK is block `t` of `linG` of the arrays the region is entered with. -/
theorem flushed (c : Dev nD) (t : Fin cfg0.N) :
    (dat0 V c).flushed 3 t = ((cfg0.win 3).blk t).view.read (Elt Ideal) (linG (V c main_v0) (V c main_v4) (V c main_v11)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨f00, f01, f10, f11, f20, f21, f31, b0⟩ := idx_facts t
  funext y
  obtain ⟨p, e, rfl⟩ : ∃ (p : Fin 1024) (e : Fin 1024), y = ix2 p e := ⟨y 0, y 1, eq_ix2 y⟩
  refine (lin_at (iblk0 V c 0 t) (iblk0 V c 1 t) (iblk0 V c 2 t) p e).trans ?_
  show _ = linG (V c main_v0) (V c main_v4) (V c main_v11) (((cfg0.win 3).blk t).view.emb (ix2 p e))
  unfold linG
  refine congrArg₂ (· + ·) (Finset.sum_congr rfl fun d _ => congrArg₂ (· * ·) ?_ ?_) ?_
  · show V c main_v0 (((cfg0.win 0).blk t).view.emb (ix2 p d)) = _
    refine congrArg (V c main_v0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * d.val = d.val; omega
  · show V c main_v4 (((cfg0.win 1).blk t).view.emb (ix2 d e)) = _
    refine congrArg (V c main_v4) (funext fun a => Fin.ext ?_)
    match a with
    | ⟨0, _⟩ => show win0_1.index t (0 : Fin 2) * 1024 + 1 * d.val = d.val; omega
    | ⟨1, _⟩ => show win0_1.index t (1 : Fin 2) * 1024 + 1 * e.val = win0_3.index t (1 : Fin 2) * 1024 + 1 * e.val; omega
  · show V c main_v11 (((cfg0.win 2).blk t).view.emb (ix2 (0 : Fin 1) e)) = _
    refine congrArg (V c main_v11) (funext fun a => Fin.ext ?_)
    match a with
    | ⟨0, _⟩ => show win0_2.index t (0 : Fin 2) * 1 + 1 * 0 = 0; omega
    | ⟨1, _⟩ => show win0_2.index t (1 : Fin 2) * 1024 + 1 * e.val = win0_3.index t (1 : Fin 2) * 1024 + 1 * e.val; omega

/-- An index of the output array is in point `t`'s block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v12).slice (win0_3.rect t)).set ↔ _
  rw [View.set_slice_whole, Rect.mem_set_unit]
  exact Iff.rfl

/-- THE ARRAY after the region. -/
theorem final (c : Dev nD) : (dat0 V c).arrAt 3 cfg0.N = linG (V c main_v0) (V c main_v4) (V c main_v11) :=
  (dat0 V c).arrAt_eq_of_cover 3 _ (fun t _ => flushed V c t) fun i => by
    have hi0 : (i 0).val < 8192 := (i 0).isLt
    have hi1 : (i 1).val < 1024 := (i 1).isLt
    obtain ⟨t, ht⟩ := idx_onto ⟨(i 0).val / 1024, by omega⟩
    have q0 : win0_3.index t (0 : Fin 2) = (i 0).val / 1024 := congrFun ht 0
    have q1 : win0_3.index t (1 : Fin 2) = 0 := congrFun ht 1
    refine ⟨t, flush0_3 t, ?_⟩
    rw [mem_blk]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

end Cert.KernelIdeal.Lin0

end
-- ==== Proof.Linear1.lean ====
/-
  What linear kernel 1 leaves in its output array, as one function of the arrays it is entered with.

  At grid point `t` the body reads rows `1024 t … 1024 t + 1023` of the input, the whole transposed weight matrix and the
  bias row, and writes the same rows of the output: a block's element sits in its array at block index × block size + the
  coordinate inside the block, the input and output row blocks move together, the weights and the bias stay. The eight row
  blocks tile the 8192 rows, so the array ends holding `X · Wᵀ + bias` everywhere.
-/
import proofs.«109171_j27779848471522_2_alg».proof.Proof.Gen.KernelIdeal.Frame
import proofs.«109171_j27779848471522_2_alg».proof.Proof.Payloads
import proofs.«109171_j27779848471522_2_alg».proof.Proof.LinG
import Idealize.ShloMosaic.Lib.Pipeline.Value
import Idealize.ShloMosaic.Lib.ValueIdx

set_option maxRecDepth 16384

noncomputable section

namespace Cert.KernelIdeal.Lin1

open Cert.KernelIdeal Cert.KernelIdeal.Gen Idealize.ShloMosaic Idealize.ShloMosaic.TcCoe Idealize.SL.Sem
open Idealize.ShloMosaic.ValueIdx Cert.KernelIdeal.Payloads Cert.KernelIdeal.Lin
open Idealize.ShloMosaic.Pipeline (Dat)

theorem hz2 : (![0, 0] : Fin 2 → Nat) = fun _ => 0 := funext fun a => by fin_cases a <;> rfl

/-- The printed index maps, decided over the grid. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every row block of the output array is some point's. -/
theorem idx_onto : ∀ q0 : Fin 8, ∃ t : Fin cfg1.N, win1_3.index t = ![q0.val, 0] :=
  (by decide +kernel : ∀ q0 : Fin 8, ∃ t : Fin grid1.N, win1_3.index t = ![q0.val, 0])

variable (V : (c : Dev nD) → (b : Ref sig .tc) → Buf (Elt Ideal) ((c : Thread nD τ).loc b))

/-- WHAT POINT `t` WRITES BACK is block `t` of `linG` of the arrays the region is entered with. -/
theorem flushed (c : Dev nD) (t : Fin cfg1.N) :
    (dat1 V c).flushed 3 t = ((cfg1.win 3).blk t).view.read (Elt Ideal) (linG (V c main_v1) (V c main_v6) (V c main_v14)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1x1024) hz2]
  obtain ⟨f00, f01, f10, f11, f20, f21, f31, b0⟩ := idx_facts t
  funext y
  obtain ⟨p, e, rfl⟩ : ∃ (p : Fin 1024) (e : Fin 1024), y = ix2 p e := ⟨y 0, y 1, eq_ix2 y⟩
  refine (congrFun (k1_eq (iblk1 V c 0 t) (iblk1 V c 1 t) (iblk1 V c 2 t)) (ix2 p e)).trans ((lin_at (iblk1 V c 0 t) (iblk1 V c 1 t) (iblk1 V c 2 t) p e).trans ?_)
  show _ = linG (V c main_v1) (V c main_v6) (V c main_v14) (((cfg1.win 3).blk t).view.emb (ix2 p e))
  unfold linG
  refine congrArg₂ (· + ·) (Finset.sum_congr rfl fun d _ => congrArg₂ (· * ·) ?_ ?_) ?_
  · show V c main_v1 (((cfg1.win 0).blk t).view.emb (ix2 p d)) = _
    refine congrArg (V c main_v1) (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * d.val = d.val; omega
  · show V c main_v6 (((cfg1.win 1).blk t).view.emb (ix2 d e)) = _
    refine congrArg (V c main_v6) (funext fun a => Fin.ext ?_)
    match a with
    | ⟨0, _⟩ => show win1_1.index t (0 : Fin 2) * 1024 + 1 * d.val = d.val; omega
    | ⟨1, _⟩ => show win1_1.index t (1 : Fin 2) * 1024 + 1 * e.val = win1_3.index t (1 : Fin 2) * 1024 + 1 * e.val; omega
  · show V c main_v14 (((cfg1.win 2).blk t).view.emb (ix2 (0 : Fin 1) e)) = _
    refine congrArg (V c main_v14) (funext fun a => Fin.ext ?_)
    match a with
    | ⟨0, _⟩ => show win1_2.index t (0 : Fin 2) * 1 + 1 * 0 = 0; omega
    | ⟨1, _⟩ => show win1_2.index t (1 : Fin 2) * 1024 + 1 * e.val = win1_3.index t (1 : Fin 2) * 1024 + 1 * e.val; omega

/-- An index of the output array is in point `t`'s block iff each coordinate is in the block's range on its axis. -/
theorem mem_blk (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v15).slice (win1_3.rect t)).set ↔ _
  rw [View.set_slice_whole, Rect.mem_set_unit]
  exact Iff.rfl

/-- THE ARRAY after the region. -/
theorem final (c : Dev nD) : (dat1 V c).arrAt 3 cfg1.N = linG (V c main_v1) (V c main_v6) (V c main_v14) :=
  (dat1 V c).arrAt_eq_of_cover 3 _ (fun t _ => flushed V c t) fun i => by
    have hi0 : (i 0).val < 8192 := (i 0).isLt
    have hi1 : (i 1).val < 1024 := (i 1).isLt
    obtain ⟨t, ht⟩ := idx_onto ⟨(i 0).val / 1024, by omega⟩
    have q0 : win1_3.index t (0 : Fin 2) = (i 0).val / 1024 := congrFun ht 0
    have q1 : win1_3.index t (1 : Fin 2) = 0 := congrFun ht 1
    refine ⟨t, flush1_3 t, ?_⟩
    rw [mem_blk]
    intro a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 1024 ≤ (i 1).val ∧ (i 1).val < win1_3.index t (1 : Fin 2) * 1024 + 1024; omega

end Cert.KernelIdeal.Lin1

end
-- ==== Proof.Linear2.lean ====
/-
  What linear kernel 2 leaves in its output array, as one function of the arrays it is entered with.

  At grid point `t` the body reads rows `1024 t … 1024 t + 1023` of the input, the whole transposed weight matrix and the
  bias row, and writes the same rows of the output: a block's element sits in its array at block index × block size + the
  coordinate inside the block, the input and output row blocks move together, the weights and the bias stay. The eight row
  blocks tile the 8192 rows, so the array ends holding `X · Wᵀ + bias` everywhere.
-/
import proofs.«109171_j27779848471522_2_alg».proof.Proof.Gen.KernelIdeal.Frame
import proofs.«109171_j27779848471522_2_alg».proof.Proof.Payloads
import proofs.«109171_j27779848471522_2_alg».proof.Proof.LinG
import Idealize.ShloMosaic.Lib.Pipeline.Value
import Idealize.ShloMosaic.Lib.ValueIdx

set_option maxRecDepth 16384

noncomputable section

namespace Cert.KernelIdeal.Lin2

open Cert.KernelIdeal Cert.KernelIdeal.Gen Idealize.ShloMosaic Idealize.ShloMosaic.TcCoe Idealize.SL.Sem
open Idealize.ShloMosaic.ValueIdx Cert.KernelIdeal.Payloads Cert.KernelIdeal.Lin
open Idealize.ShloMosaic.Pipeline (Dat)

theorem hz2 : (![0, 0] : Fin 2 → Nat) = fun _ => 0 := funext fun a => by fin_cases a <;> rfl

/-- The printed index maps, decided over the grid. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every row block of the output array is some point's. -/
theorem idx_onto : ∀ q0 : Fin 8, ∃ t : Fin cfg2.N, win2_3.index t = ![q0.val, 0] :=
  (by decide +kernel : ∀ q0 : Fin 8, ∃ t : Fin grid2.N, win2_3.index t = ![q0.val, 0])

variable (V : (c : Dev nD) → (b : Ref sig .tc) → Buf (Elt Ideal) ((c : Thread nD τ).loc b))

/-- WHAT POINT `t` WRITES BACK is block `t` of `linG` of the arrays the region is entered with. -/
theorem flushed (c : Dev nD) (t : Fin cfg2.N) :
    (dat2 V c).flushed 3 t = ((cfg2.win 3).blk t).view.read (Elt Ideal) (linG (V c main_v2) (V c main_v8) (V c main_v17)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  obtain ⟨f00, f01, f10, f11, f20, f21, f31, b0⟩ := idx_facts t
  funext y
  obtain ⟨p, e, rfl⟩ : ∃ (p : Fin 1024) (e : Fin 1024), y = ix2 p e := ⟨y 0, y 1, eq_ix2 y⟩
  refine (congrFun (k2_eq (iblk2 V c 0 t) (iblk2 V c 1 t) (iblk2 V c 2 t)) (ix2 p e)).trans ((lin_at (iblk2 V c 0 t) (iblk2 V c 1 t) (iblk2 V c 2 t) p e).trans ?_)
  show _ = linG (V c main_v2) (V c main_v8) (V c main_v17) (((cfg2.win 3).blk t).view.emb (ix2 p e))
  unfold linG
  refine congrArg₂ (· + ·) (Finset.sum_congr rfl fun d _ => congrArg₂ (· * ·) ?_ ?_) ?_
  · show V c main_v2 (((cfg2.win 0).blk t).view.emb (ix2 p d)) = _
    refine congrArg (V c main_v2) (funext fun a => Fin.ext ?_)
    match a with
    | ⟨0, _⟩ => show win2_0.index t (0 : Fin 2) * 1024 + 1 * p.val = win2_3.index t (0 : Fin 2) * 1024 + 1 * p.val; omega
    | ⟨1, _⟩ => show win2_0.index t (1 : Fin 2) * 1024 + 1 * d.val = d.val; omega
  · show V c main_v8 (((cfg2.win 1).blk t).view.emb (ix2 d e)) = _
    refine congrArg (V c main_v8) (funext fun a => Fin.ext ?_)
    match a with
    | ⟨0, _⟩ => show win2_1.index t (0 : Fin 2) * 1024 + 1 * d.val = d.val; omega
    | ⟨1, _⟩ => show win2_1.index t (1 : Fin 2) * 1024 + 1 * e.val = win2_3.index t (1 : Fin 2) * 1024 + 1 * e.val; omega
  · show V c main_v17 (((cfg2.win 2).blk t).view.emb (ix2 (0 : Fin 1) e)) = _
    refine congrArg (V c main_v17) (funext fun a => Fin.ext ?_)
    match a with
    | ⟨0, _⟩ => show win2_2.index t (0 : Fin 2) * 1 + 1 * 0 = 0; omega
    | ⟨1, _⟩ => show win2_2.index t (1 : Fin 2) * 1024 + 1 * e.val = win2_3.index t (1 : Fin 2) * 1024 + 1 * e.val; omega

/-- An index of the output array is in point `t`'s block iff each coordinate is in the block's range on its axis. -/
theorem mem_blk (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v18).slice (win2_3.rect t)).set ↔ _
  rw [View.set_slice_whole, Rect.mem_set_unit]
  exact Iff.rfl

/-- THE ARRAY after the region. -/
theorem final (c : Dev nD) : (dat2 V c).arrAt 3 cfg2.N = linG (V c main_v2) (V c main_v8) (V c main_v17) :=
  (dat2 V c).arrAt_eq_of_cover 3 _ (fun t _ => flushed V c t) fun i => by
    have hi0 : (i 0).val < 8192 := (i 0).isLt
    have hi1 : (i 1).val < 1024 := (i 1).isLt
    obtain ⟨t, ht⟩ := idx_onto ⟨(i 0).val / 1024, by omega⟩
    have q0 : win2_3.index t (0 : Fin 2) = (i 0).val / 1024 := congrFun ht 0
    have q1 : win2_3.index t (1 : Fin 2) = 0 := congrFun ht 1
    refine ⟨t, flush2_3 t, ?_⟩
    rw [mem_blk]
    intro a
    match a with
    | ⟨0, _⟩ => show win2_3.index t (0 : Fin 2) * 1024 ≤ (i 0).val ∧ (i 0).val < win2_3.index t (0 : Fin 2) * 1024 + 1024; omega
    | ⟨1, _⟩ => show win2_3.index t (1 : Fin 2) * 1024 ≤ (i 1).val ∧ (i 1).val < win2_3.index t (1 : Fin 2) * 1024 + 1024; omega

end Cert.KernelIdeal.Lin2

end
-- ==== Proof.Bridge.lean ====
/-
  The kernel's arrangement of the computation is the specification's.

  The kernel flattens the batch of token rows `[4, 2048, 1024]` to `[8192, 1024]` (token `s` of sequence `n` is row
  `2048 n + s`), multiplies by the TRANSPOSED weights (entry `(d, e)` of the transposed matrix is entry `(e, d)` of the
  matrix), adds the bias laid out as a row, and views the `[8192, 1024]` result as `[4, 2048, 16, 64]` (feature
  `64 h + e` is lane `e` of head `h`): entry `(n, s, h, e)` of that view is the specification's projection at
  `(n, s, 64 h + e)`. Row-major positions agree at each re-laying, a change of float format is the identity. With the
  three projections so identified, what the attention kernel leaves is the specification's layer, index by index.
-/
import proofs.«109171_j27779848471522_2_alg».proof.Proof.Attn
import proofs.«109171_j27779848471522_2_alg».proof.Proof.LinG
import proofs.«109171_j27779848471522_2_alg».proof.Proof.Spec
import Idealize.ShloMosaic.Lib.Pipeline.Value
import Idealize.ShloMosaic.Lib.ValueIdx
import Idealize.ShloMosaic.Lib.ValueLayout

noncomputable section

namespace Cert.KernelIdeal.Bridge

open Cert.KernelIdeal Cert.KernelIdeal.Gen Idealize.ShloMosaic Idealize.ShloMosaic.ValueIdx Cert.Mha Cert.KernelIdeal.Lin Cert.KernelIdeal.Attn

/-- Token `s` of sequence `n` among the 8192 flattened rows. -/
def row (n : Fin 4) (s : Fin 2048) : Fin 8192 := ⟨n.val * 2048 + s.val, by have := n.isLt; have := s.isLt; omega⟩

/-- The flattened input at row `(n, s)`. -/
theorem flat_at (q : FVec Ideal S4x2048x1024 .f32) (n : Fin 4) (s : Fin 2048) (d : Fin 1024) :
    shapeCast S8192x1024 q shapeCasts_S4x2048x1024_S8192x1024 (ix2 (row n s) d) = q (ix3 n s d) :=
  shapeCast_apply q _ _ _ (by
    rw [Shape.rowMajor_val_three, Shape.rowMajor_val_two]
    show (n.val * 2048 + s.val) * 1024 + d.val = (n.val * 2048 + s.val) * 1024 + d.val
    rfl)

/-- The transposed weights, in the narrower format. -/
theorem wt_at (W : FVec Ideal S1024x1024 .f32) (d e : Fin 1024) :
    (truncf .bf16 (transpose S1024x1024 [1, 0] W transposes_S1024x1024_S1024x1024_1_0) bitsLt_bf16_f32
      : FVec Ideal S1024x1024 .bf16) (ix2 d e) = W (ix2 e d) := by
  rw [truncf_apply]
  exact transpose_apply _ W _ _ _ (fun b => by
    match b with
    | ⟨0, _⟩ => rfl
    | ⟨1, _⟩ => rfl)

/-- The bias as a row. -/
theorem bias_at (b : FVec Ideal S1024 .f32) (e : Fin 1024) :
    shapeCast S1x1024 b shapeCasts_S1024_S1x1024 (ix2 (0 : Fin 1) e) = b (ix1 e) :=
  shapeCast_apply b _ _ _ (by
    rw [Shape.rowMajor_val_one, Shape.rowMajor_val_two]
    show e.val = 0 * 1024 + e.val
    omega)

/-- The `[8192, 1024]` result seen as `[4, 2048, 16, 64]`. -/
theorem heads_at (Y : S8192x1024.Idx → EReal) (n : Fin 4) (s : Fin 2048) (h : Fin 16) (e : Fin 64) :
    shapeCast S4x2048x16x64 Y shapeCasts_S8192x1024_S4x2048x16x64 (ix4 n s h e) = Y (ix2 (row n s) (feat h e)) :=
  shapeCast_apply Y _ _ _ (by
    rw [Shape.rowMajor_val_two, Shape.rowMajor_val_four]
    show (n.val * 2048 + s.val) * 1024 + (h.val * 64 + e.val) = ((n.val * 2048 + s.val) * 16 + h.val) * 64 + e.val
    omega)

/-- A linear kernel's result, seen by heads, is the specification's projection. -/
theorem projHeads_at (q : FVec Ideal S4x2048x1024 .f32) (W : FVec Ideal S1024x1024 .f32) (b : FVec Ideal S1024 .f32)
    (n : Fin 4) (s : Fin 2048) (h : Fin 16) (e : Fin 64) :
    shapeCast S4x2048x16x64 (linG (shapeCast S8192x1024 q shapeCasts_S4x2048x1024_S8192x1024)
      (truncf .bf16 (transpose S1024x1024 [1, 0] W transposes_S1024x1024_S1024x1024_1_0) bitsLt_bf16_f32)
      (shapeCast S1x1024 b shapeCasts_S1024_S1x1024)) shapeCasts_S8192x1024_S4x2048x16x64 (ix4 n s h e)
      = proj q W b n s (feat h e) := by
  rw [heads_at]
  unfold linG proj
  exact congrArg₂ (· + ·) (Finset.sum_congr rfl fun d _ => congrArg₂ (· * ·) (flat_at q n s d) (wt_at W d (feat h e)))
    (bias_at b (feat h e))

/-- WHAT THE ATTENTION KERNEL LEAVES, from the three linear kernels' results seen by heads, the transposed output weights
    and the bias row, IS THE SPECIFICATION. -/
theorem attnG_eq (q k v : FVec Ideal S4x2048x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32)
    (Wo : FVec Ideal S1024x1024 .f32) (bo : FVec Ideal S1024 .f32) :
    attnG
      (shapeCast S4x2048x16x64 (linG (shapeCast S8192x1024 q shapeCasts_S4x2048x1024_S8192x1024)
        (truncf .bf16 (transpose S1024x1024 [1, 0] Wq transposes_S1024x1024_S1024x1024_1_0) bitsLt_bf16_f32)
        (shapeCast S1x1024 bq shapeCasts_S1024_S1x1024)) shapeCasts_S8192x1024_S4x2048x16x64)
      (shapeCast S4x2048x16x64 (linG (shapeCast S8192x1024 k shapeCasts_S4x2048x1024_S8192x1024)
        (truncf .bf16 (transpose S1024x1024 [1, 0] Wk transposes_S1024x1024_S1024x1024_1_0) bitsLt_bf16_f32)
        (shapeCast S1x1024 bk shapeCasts_S1024_S1x1024)) shapeCasts_S8192x1024_S4x2048x16x64)
      (shapeCast S4x2048x16x64 (linG (shapeCast S8192x1024 v shapeCasts_S4x2048x1024_S8192x1024)
        (truncf .bf16 (transpose S1024x1024 [1, 0] Wv transposes_S1024x1024_S1024x1024_1_0) bitsLt_bf16_f32)
        (shapeCast S1x1024 bv shapeCasts_S1024_S1x1024)) shapeCasts_S8192x1024_S4x2048x16x64)
      (truncf .bf16 (transpose S1024x1024 [1, 0] Wo transposes_S1024x1024_S1024x1024_1_0) bitsLt_bf16_f32)
      (shapeCast S1x1024 bo shapeCasts_S1024_S1x1024)
    = G q k v Wq bq Wk bk Wv bv Wo bo := by
  funext i
  unfold attnG G attn
  refine congrArg₂ (· + ·) (Finset.sum_congr rfl fun j _ => congrArg₂ (· * ·) ?_ (wt_at Wo j (i 2))) (bias_at bo (i 2))
  exact congrFun (congr (congr (congrArg headRow (funext fun e' => projHeads_at q Wq bq (i 0) (i 1) (hd j) e'))
    (funext fun k' => funext fun e' => projHeads_at k Wk bk (i 0) k' (hd j) e'))
    (funext fun k' => funext fun e' => projHeads_at v Wv bv (i 0) k' (hd j) e')) (ln j)

end Cert.KernelIdeal.Bridge

end
-- ==== Proof.KernelValue.lean ====
/-
  The idealized kernel's result is the specification of its arguments.

  The result buffer ends at what the attention kernel leaves in its output array; that is the attention function of the
  arrays the kernel is entered with; those are the three linear kernels' results seen by heads, the transposed output
  weights and the bias row; each linear kernel's result is `X · Wᵀ + bias` of the arrays IT is entered with, which the
  host operations before it made from the argument arrays by flattening, transposing and re-laying. Composed, the result
  is the specification's layer of the eleven argument arrays as launched.
-/
import proofs.«109171_j27779848471522_2_alg».proof.Proof.KernelRun
import proofs.«109171_j27779848471522_2_alg».proof.Proof.Fold
import proofs.«109171_j27779848471522_2_alg».proof.Proof.Attn
import proofs.«109171_j27779848471522_2_alg».proof.Proof.Linear0
import proofs.«109171_j27779848471522_2_alg».proof.Proof.Linear1
import proofs.«109171_j27779848471522_2_alg».proof.Proof.Linear2
import proofs.«109171_j27779848471522_2_alg».proof.Proof.Bridge
import proofs.«109171_j27779848471522_2_alg».proof.Proof.Spec

set_option maxRecDepth 16384

noncomputable section

namespace Cert.KernelIdeal.ValueRun

open Cert.KernelIdeal Cert.KernelIdeal.Gen Idealize.ShloMosaic Idealize.ShloMosaic.TcCoe Idealize.SL.Sem
open Cert.Mha Cert.KernelIdeal.Lin Cert.KernelIdeal.Attn

variable (m : (ℓ : Loc nD τ sig) → Buf (Elt Ideal) ℓ) (ρ : Dev nD → PrngReg)

/-- The projected queries by heads, as the attention kernel finds them. -/
theorem entryQ (c : Dev nD) : (V7 m ρ c main_v13 : S4x2048x16x64.Idx → EReal)
    = shapeCast S4x2048x16x64 (linG (shapeCast S8192x1024 (m ((c : Thread nD τ).loc main_arg0)) shapeCasts_S4x2048x1024_S8192x1024)
        (truncf .bf16 (transpose S1024x1024 [1, 0] (m ((c : Thread nD τ).loc main_arg3) : FVec Ideal S1024x1024 .f32) transposes_S1024x1024_S1024x1024_1_0) bitsLt_bf16_f32 : FVec Ideal S1024x1024 .bf16)
        (shapeCast S1x1024 (m ((c : Thread nD τ).loc main_arg4)) shapeCasts_S1024_S1x1024)) shapeCasts_S8192x1024_S4x2048x16x64 :=
  (Fold.in3_q m ρ c).trans (congrArg (fun Y : S8192x1024.Idx → EReal => shapeCast S4x2048x16x64 Y shapeCasts_S8192x1024_S4x2048x16x64)
    ((Lin0.final (V1 m ρ) c).trans (congr (congr (congrArg linG (Fold.in0_x m ρ c)) (Fold.in0_w m ρ c)) (Fold.in0_b m ρ c))))

/-- The projected keys by heads. -/
theorem entryK (c : Dev nD) : (V7 m ρ c main_v16 : S4x2048x16x64.Idx → EReal)
    = shapeCast S4x2048x16x64 (linG (shapeCast S8192x1024 (m ((c : Thread nD τ).loc main_arg1)) shapeCasts_S4x2048x1024_S8192x1024)
        (truncf .bf16 (transpose S1024x1024 [1, 0] (m ((c : Thread nD τ).loc main_arg5) : FVec Ideal S1024x1024 .f32) transposes_S1024x1024_S1024x1024_1_0) bitsLt_bf16_f32 : FVec Ideal S1024x1024 .bf16)
        (shapeCast S1x1024 (m ((c : Thread nD τ).loc main_arg6)) shapeCasts_S1024_S1x1024)) shapeCasts_S8192x1024_S4x2048x16x64 :=
  (Fold.in3_k m ρ c).trans (congrArg (fun Y : S8192x1024.Idx → EReal => shapeCast S4x2048x16x64 Y shapeCasts_S8192x1024_S4x2048x16x64)
    ((Lin1.final (V3 m ρ) c).trans (congr (congr (congrArg linG (Fold.in1_x m ρ c)) (Fold.in1_w m ρ c)) (Fold.in1_b m ρ c))))

/-- The projected values by heads. -/
theorem entryV (c : Dev nD) : (V7 m ρ c main_v19 : S4x2048x16x64.Idx → EReal)
    = shapeCast S4x2048x16x64 (linG (shapeCast S8192x1024 (m ((c : Thread nD τ).loc main_arg2)) shapeCasts_S4x2048x1024_S8192x1024)
        (truncf .bf16 (transpose S1024x1024 [1, 0] (m ((c : Thread nD τ).loc main_arg7) : FVec Ideal S1024x1024 .f32) transposes_S1024x1024_S1024x1024_1_0) bitsLt_bf16_f32 : FVec Ideal S1024x1024 .bf16)
        (shapeCast S1x1024 (m ((c : Thread nD τ).loc main_arg8)) shapeCasts_S1024_S1x1024)) shapeCasts_S8192x1024_S4x2048x16x64 :=
  (Fold.in3_v m ρ c).trans (congrArg (fun Y : S8192x1024.Idx → EReal => shapeCast S4x2048x16x64 Y shapeCasts_S8192x1024_S4x2048x16x64)
    ((Lin2.final (V5 m ρ) c).trans (congr (congr (congrArg linG (Fold.in2_x m ρ c)) (Fold.in2_w m ρ c)) (Fold.in2_b m ρ c))))

/-- THE RESULT BUFFER after the run is the specification of the argument arrays as launched. -/
theorem result_eq (c : Dev nD) : (W8 m ρ c (Proc.devRef .tc main_v21) : S4x2048x1024.Idx → EReal)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Fold.res m ρ c).trans ((final3 (V7 m ρ) c).trans
    ((congr (congr (congr (congr (congrArg attnG (entryQ m ρ c)) (entryK m ρ c)) (entryV m ρ c)) (Fold.in3_w m ρ c)) (Fold.in3_b m ρ c)).trans
      (Bridge.attnG_eq _ _ _ _ _ _ _ _ _ _ _)))

/-- THE RUN, READ: every weakly fair execution terminates without a fault, the result buffer holding the specification of
    the arguments, the arguments unchanged. -/
theorem run : θ_run defs (onTc (τ := τ) (main (F := Ideal))) ⟨m, fun _ => 0, ρ⟩ (fun r => ∀ c : Dev nD,
      r.2.mem ((c.tc : Thread nD τ).loc main_v21) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Named.run_named m ρ)

end Cert.KernelIdeal.ValueRun

end
-- ==== Proof.RefSpec.lean ====
/-
  The reference program computes the specification.

  Stage by stage, each intermediate array of the reference, read at an index given by coordinates, is the matching
  piece of the specification: a projection `x Wᵀ + b`; its feature `64 h + d` seen as lane `d` of head `h`
  (row-major positions of `[4, 2048, 1024]` and `[4, 2048, 16, 64]` agree); the scores, where dividing by
  `√64 = 8` is multiplying by `2⁻³` on every extended real; the row maximum, a fold of `max` from −∞ (and
  `max (−∞) y = y`); the exponentials and their row sum from the zero word; the weights; the weighted sum of the value
  rows; and the output projection over the heads laid side by side.
-/
import proofs.«109171_j27779848471522_2_alg».proof.Proof.Gen.ReferenceIdeal.Read
import proofs.«109171_j27779848471522_2_alg».proof.Proof.Spec
import proofs.«109171_j27779848471522_2_alg».proof.Proof.LibRowFolds
import Idealize.ShloMosaic.Lib.ValueIdx
import Idealize.ShloMosaic.PureOps.Ideal.Laws
import Idealize.ShloMosaic.Lib.Pipeline.Value

noncomputable section

namespace Cert.ReferenceIdeal.RefValue

open Idealize.ShloMosaic Idealize.ShloMosaic.ValueIdx Cert.ReferenceIdeal Cert.ReferenceIdeal.Gen
open Cert.ReferenceIdeal.Read Cert.Mha

/-- The three kinds of argument array, at the exact values. -/
abbrev A3 := (⟨S4x2048x1024, .f32⟩ : BufTy).Contents (Elt Ideal)
abbrev M2 := (⟨S1024x1024, .f32⟩ : BufTy).Contents (Elt Ideal)
abbrev B1 := (⟨S1024, .f32⟩ : BufTy).Contents (Elt Ideal)

/-! ### The three constants -/

/-- The word of `64.0`. -/
theorem ofBits_64 : Ideal.ofBits .f32 0x42800000#32 = ((64 : ℝ) : EReal) := by
  simp [Ideal.ofBits, Ideal.ieee, -EReal.coe_mul]; norm_num

/-- The word of `2⁻³`. -/
theorem ofBits_eighth : Ideal.ofBits .f32 0x3E000000#32 = ((1 / 8 : ℝ) : EReal) := by
  simp [Ideal.ofBits, Ideal.ieee, -EReal.coe_mul]; norm_num

/-- `√64 = 8`. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by `√64` is multiplying by `2⁻³`, on every extended real. -/
theorem div_sqrt64 (x : EReal) :
    Ideal.div x (Ideal.sqrt (Ideal.ofBits .f32 0x42800000#32)) = x * Ideal.ofBits .f32 0x3E000000#32 := by
  rw [ofBits_64, sqrt_64, ofBits_eighth, Ideal.div_coe (by norm_num)]

/-! ### The projections -/

theorem lidx0_at (n : Fin 4) (s : Fin 2048) (e k : Fin 1024) : lidx_main_v0 (ix3 n s e) k = ix3 n s k := by
  funext a; match a with | ⟨0, _⟩ => rfl | ⟨1, _⟩ => rfl | ⟨2, _⟩ => rfl

theorem ridx0_at (n : Fin 4) (s : Fin 2048) (e k : Fin 1024) : ridx_main_v0 (ix3 n s e) k = ix2 e k := by
  funext a; match a with | ⟨0, _⟩ => rfl | ⟨1, _⟩ => rfl

theorem bias_idx_at (n : Fin 4) (s : Fin 2048) (e : Fin 1024) : idx_main_v1 (idx_main_v2 (ix3 n s e)) = ix1 e := by
  funext a; match a with | ⟨0, _⟩ => rfl

/-- The first projection at `(n, s, e)`. -/
theorem proj_at (x : A3) (W : M2) (b : B1) (n : Fin 4) (s : Fin 2048) (e : Fin 1024) :
    val_main_v3 (F := Ideal) x W b (ix3 n s e) = proj x W b n s e := by
  rw [val_main_v3_apply, val_main_v0_apply, val_main_v2_apply, val_main_v1_apply, bias_idx_at]
  simp only [lidx0_at, ridx0_at, Ideal.addf_def]
  rfl

/-- The second and third projections are the same function of their arguments. -/
theorem v9_eq (x : A3) (W : M2) (b : B1) : val_main_v9 (F := Ideal) x W b = val_main_v3 (F := Ideal) x W b := rfl
theorem v15_eq (x : A3) (W : M2) (b : B1) : val_main_v15 (F := Ideal) x W b = val_main_v3 (F := Ideal) x W b := rfl

/-! ### Splitting the features into heads -/

/-- Position `(n, s, h, d)` of `[4, 2048, 16, 64]` is position `(n, s, 64 h + d)` of `[4, 2048, 1024]`. -/
theorem split_idx_at (n : Fin 4) (h : Fin 16) (s : Fin 2048) (d : Fin 64) :
    idx_main_v4 (idx_main_v5 (ix4 n h s d)) = ix3 n s (feat h d) := by
  have hn := n.isLt; have hh := h.isLt; have hs := s.isLt; have hd := d.isLt
  funext a; apply Fin.ext
  match a with
  | ⟨0, _⟩ =>
    show (((n.val * 2048 + s.val) * 16 + h.val) * 64 + d.val) / 2097152 = n.val
    omega
  | ⟨1, _⟩ =>
    show (((n.val * 2048 + s.val) * 16 + h.val) * 64 + d.val) / 1024 % 2048 = s.val
    omega
  | ⟨2, _⟩ =>
    show (((n.val * 2048 + s.val) * 16 + h.val) * 64 + d.val) % 1024 = h.val * 64 + d.val
    omega

/-- A projection split into heads, at `(n, h, s, d)`. -/
theorem heads_at (x : A3) (W : M2) (b : B1) (n : Fin 4) (h : Fin 16) (s : Fin 2048) (d : Fin 64) :
    val_main_v5 (F := Ideal) x W b (ix4 n h s d) = proj x W b n s (feat h d) := by
  rw [val_main_v5_apply, val_main_v4_apply, split_idx_at, proj_at]

theorem v11_eq (x : A3) (W : M2) (b : B1) : val_main_v11 (F := Ideal) x W b = val_main_v5 (F := Ideal) x W b := rfl
theorem v17_eq (x : A3) (W : M2) (b : B1) : val_main_v17 (F := Ideal) x W b = val_main_v5 (F := Ideal) x W b := rfl

/-! ### A maximum over the last axis of a rank-4 array -/

/-- Inserting coordinate `k` on axis 3 into the reduced index `(e, n, p)` gives `(e, n, p, k)`. -/
theorem lift_last4 {m a b c : ℕ} (h : (⟨4, ![m, a, b, c]⟩ : Shape).Reduces [3] ⟨3, ![m, a, b]⟩) (e : Fin m) (n : Fin a)
    (p : Fin b) (k : Fin c) : h.lift (ix3 e n p) k = ix4 e n p k := by
  funext ax; apply Fin.ext
  match ax with
  | ⟨0, _⟩ => rfl
  | ⟨1, _⟩ => rfl
  | ⟨2, _⟩ => rfl
  | ⟨3, _⟩ => rfl

/-- A host maximum over axis 3 of `[m, a, b, c]`, at `(e, n, p)`, is `max` folded over `k` from the initial value. -/
theorem hostMax_last4_at {m a b c : ℕ} {u : Shape} (x : FVec Ideal ⟨4, ![m, a, b, c]⟩ .f32) (init : u.Idx → Ideal .f32)
    (h' : (⟨4, ![m, a, b, c]⟩ : Shape).ReducesTo [3] ⟨3, ![m, a, b]⟩)
    (h : (⟨4, ![m, a, b, c]⟩ : Shape).Reduces [3] ⟨3, ![m, a, b]⟩) (hu : 0 < u.numel) (e : Fin m) (n : Fin a) (p : Fin b) :
    Host.reduce FloatOps.maximumf x init h' hu (ix3 e n p)
      = (Finset.univ : Finset (Fin c)).fold max (init (Shape.Idx.first hu)) (fun k => x (ix4 e n p k)) := by
  refine (Host.reduce_eq_fold_single FloatOps.maximumf x init h' h hu (ix3 e n p)).trans ?_
  exact congrArg (fun f => Finset.fold max (init (Shape.Idx.first hu)) f (Finset.univ : Finset (Fin c)))
    (funext fun k => congrArg x (lift_last4 h e n p k))

theorem reduces_last : S4x16x2048x2048.Reduces [3] S4x16x2048 := by decide

theorem bcast_max_idx_at (n : Fin 4) (h : Fin 16) (q k : Fin 2048) :
    idx_main_v25 (idx_main_v26 (ix4 n h q k)) = ix3 n h q := by
  funext a; match a with | ⟨0, _⟩ => rfl | ⟨1, _⟩ => rfl | ⟨2, _⟩ => rfl

theorem idx29_at (n : Fin 4) (h : Fin 16) (q k : Fin 2048) : idx_main_v29 (ix3 n h q) k = ix4 n h q k := by
  funext a; match a with | ⟨0, _⟩ => rfl | ⟨1, _⟩ => rfl | ⟨2, _⟩ => rfl | ⟨3, _⟩ => rfl

theorem bcast_sum_idx_at (n : Fin 4) (h : Fin 16) (q k : Fin 2048) :
    idx_main_v30 (idx_main_v31 (ix4 n h q k)) = ix3 n h q := by
  funext a; match a with | ⟨0, _⟩ => rfl | ⟨1, _⟩ => rfl | ⟨2, _⟩ => rfl

theorem lidx33_at (n : Fin 4) (h : Fin 16) (q : Fin 2048) (d : Fin 64) (k : Fin 2048) :
    lidx_main_v33 (ix4 n h q d) k = ix4 n h q k := by
  funext a; match a with | ⟨0, _⟩ => rfl | ⟨1, _⟩ => rfl | ⟨2, _⟩ => rfl | ⟨3, _⟩ => rfl

theorem ridx33_at (n : Fin 4) (h : Fin 16) (q : Fin 2048) (d : Fin 64) (k : Fin 2048) :
    ridx_main_v33 (ix4 n h q d) k = ix4 n h k d := by
  funext a; match a with | ⟨0, _⟩ => rfl | ⟨1, _⟩ => rfl | ⟨2, _⟩ => rfl | ⟨3, _⟩ => rfl

/-- Position `(n, s, j)` of `[4, 2048, 1024]` is position `(n, s, j / 64, j % 64)` of `[4, 2048, 16, 64]`. -/
theorem merge_idx_at (n : Fin 4) (s : Fin 2048) (j : Fin 1024) :
    idx_main_v34 (idx_main_v35 (ix3 n s j)) = ix4 n (hd j) s (ln j) := by
  have hn := n.isLt; have hs := s.isLt; have hj := j.isLt
  funext a; apply Fin.ext
  match a with
  | ⟨0, _⟩ =>
    show ((n.val * 2048 + s.val) * 1024 + j.val) / 2097152 = n.val
    omega
  | ⟨1, _⟩ =>
    show ((n.val * 2048 + s.val) * 1024 + j.val) / 64 % 16 = j.val / 64
    omega
  | ⟨2, _⟩ =>
    show ((n.val * 2048 + s.val) * 1024 + j.val) / 1024 % 2048 = s.val
    omega
  | ⟨3, _⟩ =>
    show ((n.val * 2048 + s.val) * 1024 + j.val) % 64 = j.val % 64
    omega

theorem lidx36_at (n : Fin 4) (s : Fin 2048) (e k : Fin 1024) : lidx_main_v36 (ix3 n s e) k = ix3 n s k := by
  funext a; match a with | ⟨0, _⟩ => rfl | ⟨1, _⟩ => rfl | ⟨2, _⟩ => rfl

theorem ridx36_at (n : Fin 4) (s : Fin 2048) (e k : Fin 1024) : ridx_main_v36 (ix3 n s e) k = ix2 e k := by
  funext a; match a with | ⟨0, _⟩ => rfl | ⟨1, _⟩ => rfl

theorem out_bias_idx_at (n : Fin 4) (s : Fin 2048) (e : Fin 1024) : idx_main_v37 (idx_main_v38 (ix3 n s e)) = ix1 e := by
  funext a; match a with | ⟨0, _⟩ => rfl

/-! ### The scores -/

theorem lidx18_at (n : Fin 4) (h : Fin 16) (q k : Fin 2048) (e : Fin 64) :
    lidx_main_v18 (ix4 n h q k) e = ix4 n h q e := by
  funext a; match a with | ⟨0, _⟩ => rfl | ⟨1, _⟩ => rfl | ⟨2, _⟩ => rfl | ⟨3, _⟩ => rfl

theorem ridx18_at (n : Fin 4) (h : Fin 16) (q k : Fin 2048) (e : Fin 64) :
    ridx_main_v18 (ix4 n h q k) e = ix4 n h k e := by
  funext a; match a with | ⟨0, _⟩ => rfl | ⟨1, _⟩ => rfl | ⟨2, _⟩ => rfl | ⟨3, _⟩ => rfl

section Attention

variable (x0 x1 x2 : A3) (x3 : M2) (x4 : B1) (x5 : M2) (x6 : B1) (x7 : M2) (x8 : B1)

/-- Query row `q` of head `h` of sequence `n`, and that head's key and value tables. -/
abbrev Qrow (n : Fin 4) (h : Fin 16) (q : Fin 2048) : Fin 64 → EReal := fun e => proj x0 x3 x4 n q (feat h e)
abbrev Ktab (n : Fin 4) (h : Fin 16) : Fin 2048 → Fin 64 → EReal := fun k e => proj x1 x5 x6 n k (feat h e)
abbrev Vtab (n : Fin 4) (h : Fin 16) : Fin 2048 → Fin 64 → EReal := fun k e => proj x2 x7 x8 n k (feat h e)

/-- The scaled score of query `q` against key `k`. -/
theorem score_at (n : Fin 4) (h : Fin 16) (q k : Fin 2048) :
    val_main_v21 (F := Ideal) x0 x1 x3 x4 x5 x6 (ix4 n h q k)
      = score (Qrow x0 x3 x4 n h q) (Ktab x1 x5 x6 n h) k := by
  rw [val_main_v21_apply, val_main_v18_apply, val_main_v20_apply, val_main_v19_apply, val_main_cst_apply, v11_eq]
  simp only [lidx18_at, ridx18_at, heads_at, Ideal.hostDivf_def, Ideal.hostUnary_sqrt_def, Ideal.ofBits_def]
  rw [div_sqrt64]
  rfl

/-! ### The row maximum, the exponentials, their sum, the weights -/

/-- The row maximum: the reference's `max (−∞) (fold of max from −∞)`. -/
theorem max_at (n : Fin 4) (h : Fin 16) (q : Fin 2048) :
    val_main_v24 (F := Ideal) x0 x1 x3 x4 x5 x6 (ix3 n h q)
      = rowMax (Qrow x0 x3 x4 n h q) (Ktab x1 x5 x6 n h) := by
  rw [val_main_v24_apply, val_main_v23_apply, val_main_cst_1_apply]
  simp only [Ideal.maximumf_def, Ideal.ofBits_def]
  rw [Cert.LibRowFolds.max_negInf]
  unfold val_main_v22
  rw [hostMax_last4_at _ _ _ reduces_last, val_main_cst_0_apply]
  simp only [score_at, Ideal.ofBits_def]
  rfl

/-- The unnormalised weight of key `k`. -/
theorem expo_at (n : Fin 4) (h : Fin 16) (q k : Fin 2048) :
    val_main_v28 (F := Ideal) x0 x1 x3 x4 x5 x6 (ix4 n h q k)
      = expo (Qrow x0 x3 x4 n h q) (Ktab x1 x5 x6 n h) k := by
  rw [val_main_v28_apply, val_main_v27_apply, val_main_v26_apply, val_main_v25_apply, bcast_max_idx_at, score_at, max_at]
  simp only [Ideal.hostUnary_exp_def, Ideal.subf_def]
  rfl

/-- The row's sum of weights; the reduce starts from the zero word. -/
theorem sum_at (n : Fin 4) (h : Fin 16) (q : Fin 2048) :
    val_main_v29 (F := Ideal) x0 x1 x3 x4 x5 x6 (ix3 n h q)
      = ∑ k : Fin 2048, expo (Qrow x0 x3 x4 n h q) (Ktab x1 x5 x6 n h) k := by
  rw [val_main_v29_apply, val_main_cst_2_apply]
  simp only [idx29_at, expo_at, Ideal.ofBits_def, Ideal.ofBits_zero_f32, zero_add]

/-- The normalised weight of key `k`. -/
theorem weight_at (n : Fin 4) (h : Fin 16) (q k : Fin 2048) :
    val_main_v32 (F := Ideal) x0 x1 x3 x4 x5 x6 (ix4 n h q k)
      = Ideal.div (expo (Qrow x0 x3 x4 n h q) (Ktab x1 x5 x6 n h) k)
          (∑ k' : Fin 2048, expo (Qrow x0 x3 x4 n h q) (Ktab x1 x5 x6 n h) k') := by
  rw [val_main_v32_apply, val_main_v31_apply, val_main_v30_apply, bcast_sum_idx_at, expo_at, sum_at]
  rfl

/-! ### The weighted sum of the value rows, and the heads side by side -/

/-- One head's output for query row `q`, lane `d`. -/
theorem out_at (n : Fin 4) (h : Fin 16) (q : Fin 2048) (d : Fin 64) :
    val_main_v33 (F := Ideal) x0 x1 x2 x3 x4 x5 x6 x7 x8 (ix4 n h q d)
      = headRow (Qrow x0 x3 x4 n h q) (Ktab x1 x5 x6 n h) (Vtab x2 x7 x8 n h) d := by
  rw [val_main_v33_apply, v17_eq]
  simp only [lidx33_at, ridx33_at, weight_at, heads_at]
  rfl

/-- Feature `j` of the merged heads is lane `j % 64` of head `j / 64`. -/
theorem attn_at (n : Fin 4) (s : Fin 2048) (j : Fin 1024) :
    val_main_v35 (F := Ideal) x0 x1 x2 x3 x4 x5 x6 x7 x8 (ix3 n s j)
      = attn (proj x0 x3 x4) (proj x1 x5 x6) (proj x2 x7 x8) n s j := by
  rw [val_main_v35_apply, val_main_v34_apply, merge_idx_at, out_at]
  rfl

end Attention

/-! ### The whole layer -/

/-- The reference's result is the specification. -/
theorem ref_eq (x0 x1 x2 : (⟨S4x2048x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) :
    val_main_v39 (F := Ideal) x0 x1 x2 x3 x4 x5 x6 x7 x8 x9 x10 = G x0 x1 x2 x3 x4 x5 x6 x7 x8 x9 x10 := by
  funext i
  obtain ⟨n, s, e, rfl⟩ : ∃ (n : Fin 4) (s : Fin 2048) (e : Fin 1024), i = ix3 n s e := ⟨i 0, i 1, i 2, eq_ix3 i⟩
  rw [val_main_v39_apply, val_main_v36_apply, val_main_v38_apply, val_main_v37_apply, out_bias_idx_at]
  simp only [lidx36_at, ridx36_at, attn_at, Ideal.addf_def]
  rfl

end Cert.ReferenceIdeal.RefValue

end
-- ==== Proof.lean ====
/-
  A multi-head attention layer — three linear projections, sixteen heads of scaled dot-product attention with a softmax
  over the keys, and an output projection — computed by four TensorCore kernels, against the same layer written with array
  operations on the host.

  On the extended reals the two programs compute one function of the eleven argument arrays (Proof/Spec.lean):
  * a projection is `x Wᵀ + b`; the kernel flattens the token rows, multiplies by the transposed weights and adds the bias
    as a row, the reference contracts the weights' second axis directly: the same sums;
  * a head's scores are the dot products of a query row with the key rows, scaled — by the word of `2⁻³` in the kernel, by
    division by `√64 = 8` in the reference: dividing by `8` is multiplying by `1/8` on every extended real;
  * the softmax subtracts the row maximum (the reference takes one more maximum with −∞, which changes nothing),
    exponentiates, and divides by the row sum; the weights multiply the value rows;
  * the heads are laid side by side — feature `64 h + d` is lane `d` of head `h` — by a concatenation in the kernel, by a
    transpose and a reshape in the reference, and go through the output projection.
  Changes of float format are the identity on the extended reals, a product into the zero accumulator is the plain sum
  over the contracted coordinate, and the kernels' tiling into row blocks covers each array exactly. No step needs the
  inputs to be finite, so the precondition is not opened.

  The idealized kernel's run with its result named is Proof/KernelValue.lean (over Proof/KernelRun.lean, Fold.lean, the
  kernels' bodies in Head.lean, Payloads.lean, Attn.lean, Linear0–2.lean and the layout algebra in Bridge.lean); the
  reference's generated run read stage by stage is Proof/RefSpec.lean. The three frames are the generated frame runs; the
  idealization rewrote nothing, so `preserves` has nothing to state.
-/
import proofs.«109171_j27779848471522_2_alg».proof.Defs
import proofs.«109171_j27779848471522_2_alg».proof.Proof.Gen.Kernel
import proofs.«109171_j27779848471522_2_alg».proof.Proof.Gen.Kernel.Skeleton
import proofs.«109171_j27779848471522_2_alg».proof.Proof.Gen.Kernel.Launch
import proofs.«109171_j27779848471522_2_alg».proof.Proof.Gen.Kernel.Points
import proofs.«109171_j27779848471522_2_alg».proof.Proof.Gen.Kernel.Frame
import proofs.«109171_j27779848471522_2_alg».proof.Proof.Gen.KernelIdeal
import proofs.«109171_j27779848471522_2_alg».proof.Proof.Gen.KernelIdeal.Skeleton
import proofs.«109171_j27779848471522_2_alg».proof.Proof.Gen.KernelIdeal.Launch
import proofs.«109171_j27779848471522_2_alg».proof.Proof.Gen.KernelIdeal.Points
import proofs.«109171_j27779848471522_2_alg».proof.Proof.Gen.KernelIdeal.Frame
import proofs.«109171_j27779848471522_2_alg».proof.Proof.Gen.ReferenceIdeal
import proofs.«109171_j27779848471522_2_alg».proof.Proof.Gen.Pre_finite_inputs
import proofs.«109171_j27779848471522_2_alg».proof.Proof.Gen.ReferenceIdeal.Run
import proofs.«109171_j27779848471522_2_alg».proof.Proof.Gen.ReferenceIdeal.Read
import proofs.«109171_j27779848471522_2_alg».proof.Proof.KernelValue
import proofs.«109171_j27779848471522_2_alg».proof.Proof.RefSpec
import Idealize.ShloMosaic.Adequacy
import Idealize.ShloMosaic.Init

noncomputable section

namespace Cert.Proof

open Idealize.ShloMosaic Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The idealized reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's layer of those
    arguments in their result buffers. -/
theorem algebraic : Cert.algebraic_KernelIdeal_ReferenceIdeal := by
  intro m ρ m' ρ' _ hagree
  refine ⟨_, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq]
  obtain ⟨a0, a1, a2, a3, a4, a5, a6, a7, a8, a9, a10⟩ := hagree c
  rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
